-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x3 : Shape := ⟨3, ![8, 8192, 3]⟩
abbrev S8x2048x3 : Shape := ⟨3, ![8, 2048, 3]⟩
abbrev S_ : Shape := ⟨0, ![]⟩

class Facts : Prop where
  bcast_S_S8x8192x3 : S_.BroadcastsInDim S8x8192x3 (![] : Fin 0 → Fin S8x8192x3.rank)
  reducesTo_S8x8192x3_S_d0_1_2 : S8x8192x3.ReducesTo [0, 1, 2] S_
  h_S_ : 0 < S_.numel
  bcast_S_S8x2048x3 : S_.BroadcastsInDim S8x2048x3 (![] : Fin 0 → Fin S8x2048x3.rank)
  reducesTo_S8x2048x3_S_d0_1_2 : S8x2048x3.ReducesTo [0, 1, 2] S_

variable [Facts]

def fn {F : FTy → Type} [FloatOps F] (main_arg0 : FVec F S8x8192x3 .f32) (main_arg1 : FVec F S8x8192x3 .f32) (main_arg2 : FVec F S8x2048x3 .f32) : IVec S_ 1 :=
  let main_v0 : FVec F S8x8192x3 .f32 := Host.absf main_arg0
  let main_cst : FVec F S_ .f32 := constant S_ .f32 0x7F800000#32
  let main_v1 : FVec F S8x8192x3 .f32 := broadcastInDim S8x8192x3 ![] bcast_S_S8x8192x3 main_cst
  let main_v2 : IVec S8x8192x3 1 := cmpf .olt main_v0 main_v1
  let main_c : IVec S_ 1 := constantI S_ 1 1#1
  let main_v3 : IVec S_ 1 := (fun x v => Host.reduce IntOp.andi x v reducesTo_S8x8192x3_S_d0_1_2 h_S_) main_v2 main_c
  let main_v4 : FVec F S8x8192x3 .f32 := Host.absf main_arg1
  let main_cst_0 : FVec F S_ .f32 := constant S_ .f32 0x7F800000#32
  let main_v5 : FVec F S8x8192x3 .f32 := broadcastInDim S8x8192x3 ![] bcast_S_S8x8192x3 main_cst_0
  let main_v6 : IVec S8x8192x3 1 := cmpf .olt main_v4 main_v5
  let main_c_1 : IVec S_ 1 := constantI S_ 1 1#1
  let main_v7 : IVec S_ 1 := (fun x v => Host.reduce IntOp.andi x v reducesTo_S8x8192x3_S_d0_1_2 h_S_) main_v6 main_c_1
  let main_v8 : IVec S_ 1 := andi main_v3 main_v7
  let main_v9 : FVec F S8x2048x3 .f32 := Host.absf main_arg2
  let main_cst_2 : FVec F S_ .f32 := constant S_ .f32 0x7F800000#32
  let main_v10 : FVec F S8x2048x3 .f32 := broadcastInDim S8x2048x3 ![] bcast_S_S8x2048x3 main_cst_2
  let main_v11 : IVec S8x2048x3 1 := cmpf .olt main_v9 main_v10
  let main_c_3 : IVec S_ 1 := constantI S_ 1 1#1
  let main_v12 : IVec S_ 1 := (fun x v => Host.reduce IntOp.andi x v reducesTo_S8x2048x3_S_d0_1_2 h_S_) main_v11 main_c_3
  let main_v13 : IVec S_ 1 := andi main_v8 main_v12
  main_v13
-- ==== Kernel.lean ====
abbrev S8x8192x3 : Shape := ⟨3, ![8, 8192, 3]⟩
abbrev S8x2048x3 : Shape := ⟨3, ![8, 2048, 3]⟩
abbrev S8x3x2048 : Shape := ⟨3, ![8, 3, 2048]⟩
abbrev S8x1x1 : Shape := ⟨3, ![8, 1, 1]⟩
abbrev S1x3x2048 : Shape := ⟨3, ![1, 3, 2048]⟩
abbrev S1x1024x3 : Shape := ⟨3, ![1, 1024, 3]⟩
abbrev S1x1x1 : Shape := ⟨3, ![1, 1, 1]⟩
abbrev S1x2048 : Shape := ⟨2, ![1, 2048]⟩
abbrev S3x2048 : Shape := ⟨2, ![3, 2048]⟩
abbrev S1024x3 : Shape := ⟨2, ![1024, 3]⟩
abbrev S1024x1 : Shape := ⟨2, ![1024, 1]⟩
abbrev S1024x2048 : Shape := ⟨2, ![1024, 2048]⟩
abbrev S2048 : Shape := ⟨1, ![2048]⟩
abbrev S1 : Shape := ⟨1, ![1]⟩
abbrev S1x1 : Shape := ⟨2, ![1, 1]⟩
abbrev S8 : Shape := ⟨1, ![8]⟩

abbrev nBuf : Space → Nat
  | .hbm => 6
  | .vmem => 10
  | .smem => 0
  | _ => 0

abbrev bufTy : (tb : Table) → Fin (tcTables nBuf tb) → BufTy
  | .hbm, ⟨0, _⟩ => ⟨S8x8192x3, .f32⟩
  | .hbm, ⟨1, _⟩ => ⟨S8x8192x3, .f32⟩
  | .hbm, ⟨2, _⟩ => ⟨S8x2048x3, .f32⟩
  | .hbm, ⟨3, _⟩ => ⟨S8x3x2048, .f32⟩
  | .hbm, ⟨4, _⟩ => ⟨S8x1x1, .f32⟩
  | .hbm, ⟨5, _⟩ => ⟨S8, .f32⟩
  | .local _ .vmem, ⟨0, _⟩ => ⟨S1x3x2048, .f32⟩
  | .local _ .vmem, ⟨1, _⟩ => ⟨S1x3x2048, .f32⟩
  | .local _ .vmem, ⟨2, _⟩ => ⟨S1x1024x3, .f32⟩
  | .local _ .vmem, ⟨3, _⟩ => ⟨S1x1024x3, .f32⟩
  | .local _ .vmem, ⟨4, _⟩ => ⟨S1x1024x3, .f32⟩
  | .local _ .vmem, ⟨5, _⟩ => ⟨S1x1024x3, .f32⟩
  | .local _ .vmem, ⟨6, _⟩ => ⟨S1x1x1, .f32⟩
  | .local _ .vmem, ⟨7, _⟩ => ⟨S1x1x1, .f32⟩
  | .local _ .vmem, ⟨8, _⟩ => ⟨S1x2048, .f32⟩
  | .local _ .vmem, ⟨9, _⟩ => ⟨S1x2048, .f32⟩
  | _, _ => ⟨S8x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_cond3 (i : grid0.Coords) : BitVec 1 :=
  let arg1 : BitVec 32 := BitVec.ofNat 32 (i 1).val
  let c7_i32 : BitVec 32 := 7#32
  let v74 : BitVec 1 := Scalar.cmpi .eq arg1 c7_i32
  let v75 : BitVec 32 := Scalar.extui v74
  let c0_i32_14 : BitVec 32 := 0#32
  let v76 : BitVec 1 := Scalar.cmpi .ne v75 c0_i32_14
  v76

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S8x2048x3_S8x3x2048_0_2_1 : S8x2048x3.Transposes [0, 2, 1] S8x3x2048
  inb_S1x3x2048_S1x3x2048_0_0_0 : ∀ a, (![0, 0, 0] : Fin 3 → Nat) a + S1x3x2048.size a ≤ S1x3x2048.size a
  h_S1x3x2048 : 0 < S1x3x2048.numel
  shapeCasts_S1x3x2048_S3x2048 : S1x3x2048.ShapeCasts S3x2048
  slices_S3x2048_o0_0_S1x2048 : S3x2048.Slices ![0, 0] S1x2048
  slices_S3x2048_o1_0_S1x2048 : S3x2048.Slices ![1, 0] S1x2048
  slices_S3x2048_o2_0_S1x2048 : S3x2048.Slices ![2, 0] S1x2048
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  slices_S1024x3_o0_0_S1024x1 : S1024x3.Slices ![0, 0] S1024x1
  slices_S1024x3_o0_1_S1024x1 : S1024x3.Slices ![0, 1] S1024x1
  slices_S1024x3_o0_2_S1024x1 : S1024x3.Slices ![0, 2] S1024x1
  broadcasts_S1x2048_S1024x2048 : S1x2048.Broadcasts S1024x2048
  broadcasts_S1024x1_S1024x2048 : S1024x1.Broadcasts S1024x2048
  reduces_S1024x2048_S2048 : S1024x2048.Reduces [0] S2048
  shapeCasts_S2048_S1x2048 : S2048.ShapeCasts S1x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  reduces_S1x2048_S1 : S1x2048.Reduces [1] S1
  shapeCasts_S1_S1x1 : S1.ShapeCasts S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  shapeCasts_S8x1x1_S8 : S8x1x1.ShapeCasts S8
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x2048.size a ≤ S8x3x2048.size a
  hwx0_0 : ∀ i : grid0.Coords, EltTy.bits .f32 = 32 ∨ (Rect.block (s := S8x3x2048) S1x3x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x3.size a ≤ S8x8192x3.size a
  hwx0_1 : ∀ i : grid0.Coords, EltTy.bits .f32 = 32 ∨ (Rect.block (s := S8x8192x3) S1x1024x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x3.size a ≤ S8x8192x3.size a
  hwx0_2 : ∀ i : grid0.Coords, EltTy.bits .f32 = 32 ∨ (Rect.block (s := S8x8192x3) S1x1024x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S8x1x1.size a
  hwx0_3 : ∀ i : grid0.Coords, EltTy.bits .f32 = 32 ∨ (Rect.block (s := S8x1x1) S1x1x1.size (cc0_transform_3 i) (hinb0_3 i)).WholeWords (EltTy.packing .f32)

variable [Facts₀]

abbrev win0_0 : Pipeline.Window sig grid0 :=
  Pipeline.Window.ofSpec (Memref.whole main_v0) S1x3x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x1024x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond3 i == 1#1) | ⟨_ + 4, h⟩ => absurd h (Nat.not_lt.2 (Nat.le_add_left _ _))

class Facts : Prop extends Facts₀ where

variable [Facts]
-- ==== ReferenceIdeal.lean ====
abbrev S8x8192x3 : Shape := ⟨3, ![8, 8192, 3]⟩
abbrev S8x2048x3 : Shape := ⟨3, ![8, 2048, 3]⟩
abbrev S_ : Shape := ⟨0, ![]⟩
abbrev S8x2048 : Shape := ⟨2, ![8, 2048]⟩
abbrev S8x2048x1 : Shape := ⟨3, ![8, 2048, 1]⟩
abbrev S8x8192 : Shape := ⟨2, ![8, 8192]⟩
abbrev S8x1x8192 : Shape := ⟨3, ![8, 1, 8192]⟩
abbrev S8x2048x8192 : Shape := ⟨3, ![8, 2048, 8192]⟩
abbrev S8 : Shape := ⟨1, ![8]⟩

abbrev nBuf : Space → Nat
  | .hbm => 54
  | .vmem => 0
  | .smem => 0
  | _ => 0

abbrev bufTy : (tb : Table) → Fin (tcTables nBuf tb) → BufTy
  | .hbm, ⟨0, _⟩ => ⟨S8x8192x3, .f32⟩
  | .hbm, ⟨1, _⟩ => ⟨S8x8192x3, .f32⟩
  | .hbm, ⟨2, _⟩ => ⟨S8x2048x3, .f32⟩
  | .hbm, ⟨3, _⟩ => ⟨S8x2048x3, .f32⟩
  | .hbm, ⟨4, _⟩ => ⟨S_, .f32⟩
  | .hbm, ⟨5, _⟩ => ⟨S8x2048, .f32⟩
  | .hbm, ⟨6, _⟩ => ⟨S8x2048x1, .f32⟩
  | .hbm, ⟨7, _⟩ => ⟨S8x8192x3, .f32⟩
  | .hbm, ⟨8, _⟩ => ⟨S_, .f32⟩
  | .hbm, ⟨9, _⟩ => ⟨S8x8192, .f32⟩
  | .hbm, ⟨10, _⟩ => ⟨S8x1x8192, .f32⟩
  | .hbm, ⟨11, _⟩ => ⟨S8x2048x8192, .f32⟩
  | .hbm, ⟨12, _⟩ => ⟨S8x2048x8192, .f32⟩
  | .hbm, ⟨13, _⟩ => ⟨S8x2048x8192, .f32⟩
  | .hbm, ⟨14, _⟩ => ⟨S8x2048x8192, .f32⟩
  | .hbm, ⟨15, _⟩ => ⟨S_, .f32⟩
  | .hbm, ⟨16, _⟩ => ⟨S8x2048x8192, .f32⟩
  | .hbm, ⟨17, _⟩ => ⟨S8x2048x8192, .f32⟩
  | .hbm, ⟨18, _⟩ => ⟨S8x2048x8192, .f32⟩
  | .hbm, ⟨19, _⟩ => ⟨S_, .f32⟩
  | .hbm, ⟨20, _⟩ => ⟨S8x2048x8192, .f32⟩
  | .hbm, ⟨21, _⟩ => ⟨S8x2048x8192, .f32⟩
  | .hbm, ⟨22, _⟩ => ⟨S8x2048x8192, .f32⟩
  | .hbm, ⟨23, _⟩ => ⟨S_, .f32⟩
  | .hbm, ⟨24, _⟩ => ⟨S8x2048, .f32⟩
  | .hbm, ⟨25, _⟩ => ⟨S8x2048x3, .f32⟩
  | .hbm, ⟨26, _⟩ => ⟨S_, .f32⟩
  | .hbm, ⟨27, _⟩ => ⟨S8x2048, .f32⟩
  | .hbm, ⟨28, _⟩ => ⟨S8x2048x1, .f32⟩
  | .hbm, ⟨29, _⟩ => ⟨S8x8192x3, .f32⟩
  | .hbm, ⟨30, _⟩ => ⟨S_, .f32⟩
  | .hbm, ⟨31, _⟩ => ⟨S8x8192, .f32⟩
  | .hbm, ⟨32, _⟩ => ⟨S8x1x8192, .f32⟩
  | .hbm, ⟨33, _⟩ => ⟨S8x2048x8192, .f32⟩
  | .hbm, ⟨34, _⟩ => ⟨S8x2048x8192, .f32⟩
  | .hbm, ⟨35, _⟩ => ⟨S8x2048x8192, .f32⟩
  | .hbm, ⟨36, _⟩ => ⟨S8x2048x8192, .f32⟩
  | .hbm, ⟨37, _⟩ => ⟨S_, .f32⟩
  | .hbm, ⟨38, _⟩ => ⟨S8x2048x8192, .f32⟩
  | .hbm, ⟨39, _⟩ => ⟨S8x2048x8192, .f32⟩
  | .hbm, ⟨40, _⟩ => ⟨S8x2048x8192, .f32⟩
  | .hbm, ⟨41, _⟩ => ⟨S_, .f32⟩
  | .hbm, ⟨42, _⟩ => ⟨S8x2048x8192, .f32⟩
  | .hbm, ⟨43, _⟩ => ⟨S8x2048x8192, .f32⟩
  | .hbm, ⟨44, _⟩ => ⟨S8x2048x8192, .f32⟩
  | .hbm, ⟨45, _⟩ => ⟨S_, .f32⟩
  | .hbm, ⟨46, _⟩ => ⟨S8x2048, .f32⟩
  | .hbm, ⟨47, _⟩ => ⟨S8x2048, .f32⟩
  | .hbm, ⟨48, _⟩ => ⟨S8x2048, .f32⟩
  | .hbm, ⟨49, _⟩ => ⟨S_, .f32⟩
  | .hbm, ⟨50, _⟩ => ⟨S8, .f32⟩
  | .hbm, ⟨51, _⟩ => ⟨S_, .f32⟩
  | .hbm, ⟨52, _⟩ => ⟨S8, .f32⟩
  | .hbm, ⟨53, _⟩ => ⟨S8, .f32⟩
  | _, _ => ⟨S8x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_6 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_8 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_cst_10 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]

class Facts₀ : Prop where
  reducesTo_S8x2048x3_S8x2048_d2 : S8x2048x3.ReducesTo [2] S8x2048
  h_S_ : 0 < S_.numel
  bcast_S8x2048_S8x2048x1_0_1 : S8x2048.BroadcastsInDim S8x2048x1 (![0, 1] : Fin 2 → Fin S8x2048x1.rank)
  reducesTo_S8x8192x3_S8x8192_d2 : S8x8192x3.ReducesTo [2] S8x8192
  bcast_S8x8192_S8x1x8192_0_2 : S8x8192.BroadcastsInDim S8x1x8192 (![0, 2] : Fin 2 → Fin S8x1x8192.rank)
  bcast_S8x2048x1_S8x2048x8192_0_1_2 : S8x2048x1.BroadcastsInDim S8x2048x8192 (![0, 1, 2] : Fin 3 → Fin S8x2048x8192.rank)
  bcast_S8x1x8192_S8x2048x8192_0_1_2 : S8x1x8192.BroadcastsInDim S8x2048x8192 (![0, 1, 2] : Fin 3 → Fin S8x2048x8192.rank)
  bcast_S_S8x2048x8192 : S_.BroadcastsInDim S8x2048x8192 (![] : Fin 0 → Fin S8x2048x8192.rank)
  reducesTo_S8x2048x8192_S8x2048_d2 : S8x2048x8192.ReducesTo [2] S8x2048
  reducesTo_S8x2048_S8_d1 : S8x2048.ReducesTo [1] S8
  bcast_S_S8 : S_.BroadcastsInDim S8 (![] : Fin 0 → Fin S8.rank)
  dot_S8x2048x3_S8x8192x3_S8x2048x8192_2_2_1_1_0_0_wf : DotDims.WF S8x2048x3 S8x8192x3 S8x2048x8192 [2] [2] [1] [1] [0] [0]

variable [Facts₀]

def dot_S8x2048x3_S8x8192x3_S8x2048x8192_2_2_1_1_0_0 : DotDims S8x2048x3 S8x8192x3 S8x2048x8192 where
  lhsContracting := [2]
  rhsContracting := [2]
  lhsNonContracting := [1]
  rhsNonContracting := [1]
  lhsBatch := [0]
  rhsBatch := [0]
  wf := dot_S8x2048x3_S8x8192x3_S8x2048x8192_2_2_1_1_0_0_wf

class Facts : Prop extends Facts₀ where

variable [Facts]
-- ==== Proof.K.Cases.lean ====
/-
  The body's three branches, decided over the grid. A grid point is t = 8·b + c (b the batch, c the chunk of 1024
  points along the 8192-point axis). The first branch (the running minima are SET) is taken exactly at c = 0, the
  second (the running minima are LOWERED by the chunk's minima) exactly at c ≠ 0, the third (the batch's mean is
  written to the output block) exactly at c = 7. So every point is in one of three cases: c = 0; 0 < c < 7; c = 7.
  The output window is idle and not written back except at c = 7.
-/
import proofs.«137635_j16346645528639_2_alg».proof.Proof.Gen.Kernel.Frame
import proofs.«137635_j16346645528639_2_alg».proof.Proof.Gen.Kernel.Skeleton

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- The first branch's condition: the chunk coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The second branch's condition: the chunk coordinate is not 0. -/
abbrev cond0_1 (i : grid0.Coords) : Prop := (Scalar.cmpi .ne (Scalar.extui (Scalar.cmpi .ne (BitVec.ofNat 32 (i 1).val) 0#32)) 0#32) = 1#1
theorem hcond0_1 : ∀ t : Fin cfg0.N, cond0_1 (grid0.coords t) ↔ ¬ t.val % 8 = 0 :=
  (by decide +kernel : ∀ t : Fin grid0.N, cond0_1 (grid0.coords t) ↔ ¬ t.val % 8 = 0)

/-- The third branch's condition: the chunk coordinate is 7, the last. -/
abbrev cond0_2 (i : grid0.Coords) : Prop := k0_cond3 i = 1#1
theorem hcond0_2 : ∀ t : Fin cfg0.N, cond0_2 (grid0.coords t) ↔ t.val % 8 = 7 :=
  (by decide +kernel : ∀ t : Fin grid0.N, cond0_2 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last chunk the output window is idle, -/
theorem idleAt0_3 : ∀ t : Fin cfg0.N, ¬cond0_2 (grid0.coords t) → cfg0.idle 3 (grid0.coords t) = true := by decide +kernel
/-- and its block is not written back; -/
theorem noFlush0_3 : ∀ t : Fin cfg0.N, ¬cond0_2 (grid0.coords t) → (cfg0.win 3).flush t = false := by decide +kernel
/-- at the last chunk it is live. -/
theorem liveAt0_3 : ∀ t : Fin cfg0.N, cond0_2 (grid0.coords t) → cfg0.idle 3 (grid0.coords t) = false := by decide +kernel

/-! ## The memrefs the body is called with -/

/-- One staging buffer of the output window, through which its contents are stated. -/
abbrev VO0_3 : View sig .tc .vmem S1x1x1 .f32 := (Memref.whole cc0_stg3_0 : Memref sig .tc .vmem S1x1x1 .f32).view
abbrev ms0_0 (t : Fin cfg0.N) : Memref sig .tc .vmem S1x3x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x3 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1 .f32 := win0_3.stage (cfg0.slots t 3)
abbrev hs0_3 (t : Fin cfg0.N) : (ms0_3 t).IsWhole := hstage0_3 ((cfg0.slots t 3).cast nbuf0_3)
/-- The two running-minimum scratch buffers. -/
abbrev scM0_0 : Memref sig .tc .vmem S1x2048 .f32 := Memref.whole cc0_scratch0
abbrev scM0_1 : Memref sig .tc .vmem S1x2048 .f32 := Memref.whole cc0_scratch1
abbrev VS0_0 : View sig .tc .vmem S1x2048 .f32 := scM0_0.view
abbrev VS0_1 : View sig .tc .vmem S1x2048 .f32 := scM0_1.view

/-- The region's invariant with the two scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Hand

end
-- ==== Proof.K.RunA.lean ====
/-
  The body at a point with chunk coordinate 0: both running minima are SET to the chunk's minima (one store covering
  each scratch buffer); the output block is not touched.
-/
import proofs.«137635_j16346645528639_2_alg».proof.Proof.K.Cases

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At chunk 0, on whole memrefs — the three inputs at their contents, the output block at contents handed back
    untouched, the two scratch buffers at anything — the body runs, leaving each scratch buffer with the listed
    pieces written (the pieces are found by the run). -/
noncomputable def kernelRun0_A (c : Dev nD) (i : grid0.Coords) (arg2 : Memref sig .tc .vmem S1x3x2048 .f32) (harg2 : arg2.IsWhole) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x2048 .f32) (harg6 : arg6.IsWhole) (arg7 : Memref sig .tc .vmem S1x2048 .f32) (harg7 : arg7.IsWhole)
    (hc0 : cond0_0 i) (hc1 : ¬cond0_1 i) (hc2 : ¬cond0_2 i) (x0 : Vec F S1x3x2048 .f32) (x1 : Vec F S1x1024x3 .f32) (x2 : Vec F S1x1024x3 .f32) :
    Σ' (L3 : List (View.Piece (Elt F) S1x1x1 .f32)) (LS0 : List (View.Piece (Elt F) S1x2048 .f32)), { LS1 : List (View.Piece (Elt F) S1x2048 .f32) //
      ∀ (xi3 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__chamfer_kernel i arg2 harg2 arg3 harg3 arg4 harg4 arg5 harg5 arg6 harg6 arg7 harg7) K } := by
  refine ⟨[], ?_, ?_, fun xi3 E K => ?run⟩
  case run =>
    simp only [cc0__chamfer_kernel_eq_skeleton]; unfold cc0__chamfer_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Hand

end
-- ==== Proof.K.RunB.lean ====
/-
  The body at a point with chunk coordinate strictly between 0 and 7: each running minimum is LOWERED to the
  lesser of what the point before left and the chunk's minimum; the output block is not touched.
-/
import proofs.«137635_j16346645528639_2_alg».proof.Proof.K.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a middle chunk, the scratch buffers arriving at contents xs0, xs1. -/
noncomputable def kernelRun0_B (c : Dev nD) (i : grid0.Coords) (arg2 : Memref sig .tc .vmem S1x3x2048 .f32) (harg2 : arg2.IsWhole) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x2048 .f32) (harg6 : arg6.IsWhole) (arg7 : Memref sig .tc .vmem S1x2048 .f32) (harg7 : arg7.IsWhole)
    (hc0 : ¬cond0_0 i) (hc1 : cond0_1 i) (hc2 : ¬cond0_2 i) (x0 : Vec F S1x3x2048 .f32) (x1 : Vec F S1x1024x3 .f32) (x2 : Vec F S1x1024x3 .f32) (xs0 xs1 : Vec F S1x2048 .f32) :
    Σ' (L3 : List (View.Piece (Elt F) S1x1x1 .f32)) (LS0 : List (View.Piece (Elt F) S1x2048 .f32)), { LS1 : List (View.Piece (Elt F) S1x2048 .f32) //
      ∀ (xi3 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__chamfer_kernel i arg2 harg2 arg3 harg3 arg4 harg4 arg5 harg5 arg6 harg6 arg7 harg7) K } := by
  refine ⟨[], ?_, ?_, fun xi3 E K => ?run⟩
  case run =>
    simp only [cc0__chamfer_kernel_eq_skeleton]; unfold cc0__chamfer_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.Kernel.Hand

end
-- ==== Proof.K.RunC.lean ====
/-
  The body at a point with chunk coordinate 7, the last: each running minimum is lowered as at a middle chunk, and
  then the batch's mean absolute difference of the two clamped square roots is stored, covering the output block.
-/
import proofs.«137635_j16346645528639_2_alg».proof.Proof.K.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the last chunk, the scratch buffers arriving at contents xs0, xs1, the output block at anything. -/
noncomputable def kernelRun0_C (c : Dev nD) (i : grid0.Coords) (arg2 : Memref sig .tc .vmem S1x3x2048 .f32) (harg2 : arg2.IsWhole) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x2048 .f32) (harg6 : arg6.IsWhole) (arg7 : Memref sig .tc .vmem S1x2048 .f32) (harg7 : arg7.IsWhole)
    (hc0 : ¬cond0_0 i) (hc1 : cond0_1 i) (hc2 : cond0_2 i) (x0 : Vec F S1x3x2048 .f32) (x1 : Vec F S1x1024x3 .f32) (x2 : Vec F S1x1024x3 .f32) (xs0 xs1 : Vec F S1x2048 .f32) :
    Σ' (L3 : List (View.Piece (Elt F) S1x1x1 .f32)) (LS0 : List (View.Piece (Elt F) S1x2048 .f32)), { LS1 : List (View.Piece (Elt F) S1x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__chamfer_kernel i arg2 harg2 arg3 harg3 arg4 harg4 arg5 harg5 arg6 harg6 arg7 harg7) K } := by
  refine ⟨?_, ?_, ?_, fun E K => ?run⟩
  case run =>
    simp only [cc0__chamfer_kernel_eq_skeleton]; unfold cc0__chamfer_kernel_skel
    simp only [k0_part1_eq_skeleton]; unfold k0_part1_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg6.eq_unread hfs0; obtain rfl := harg7.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

end Cert.Kernel.Hand

end
-- ==== Proof.K.Body.lean ====
/-
  The proof data of the one pipeline and the body obligation. After the body at point t = 8·b + c the two scratch
  buffers hold the running minima over chunks 0..c of batch b (set at c = 0, lowered afterwards), the output block's
  staging buffer holds the batch's mean at c = 7, and the three inputs' buffers hold their blocks. The region's
  invariant carries the two scratch buffers at those contents from each point to the next.
-/
import proofs.«137635_j16346645528639_2_alg».proof.Proof.K.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- What case A leaves in the output block's staging buffer (nothing is stored: a placeholder nobody consults). -/
def out0_A_3 (c : Dev nD) (i : grid0.Coords) (arg2 : Memref sig .tc .vmem S1x3x2048 .f32) (harg2 : arg2.IsWhole) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x2048 .f32) (harg6 : arg6.IsWhole) (arg7 : Memref sig .tc .vmem S1x2048 .f32) (harg7 : arg7.IsWhole) (hc0 : cond0_0 i) (hc1 : ¬cond0_1 i) (hc2 : ¬cond0_2 i) (x0 : Vec F S1x3x2048 .f32) (x1 : Vec F S1x1024x3 .f32) (x2 : Vec F S1x1024x3 .f32) : Vec F S1x1x1 .f32 :=
  VO0_3.read (Elt F) (VO0_3.writes (Elt F) VO0_3.junk (kernelRun0_A c i arg2 harg2 arg3 harg3 arg4 harg4 arg5 harg5 arg6 harg6 arg7 harg7 hc0 hc1 hc2 x0 x1 x2).1)

theorem scover0_A_0 (c : Dev nD) (i : grid0.Coords) (arg2 : Memref sig .tc .vmem S1x3x2048 .f32) (harg2 : arg2.IsWhole) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x2048 .f32) (harg6 : arg6.IsWhole) (arg7 : Memref sig .tc .vmem S1x2048 .f32) (harg7 : arg7.IsWhole) (hc0 : cond0_0 i) (hc1 : ¬cond0_1 i) (hc2 : ¬cond0_2 i) (x0 : Vec F S1x3x2048 .f32) (x1 : Vec F S1x1024x3 .f32) (x2 : Vec F S1x1024x3 .f32) (y : S1x2048.Idx) :
    ∃ pc ∈ (kernelRun0_A c i arg2 harg2 arg3 harg3 arg4 harg4 arg5 harg5 arg6 harg6 arg7 harg7 hc0 hc1 hc2 x0 x1 x2).2.1, y ∈ pc.1.set :=
  View.cover_of_tiledL (kernelRun0_A c i arg2 harg2 arg3 harg3 arg4 harg4 arg5 harg5 arg6 harg6 arg7 harg7 hc0 hc1 hc2 x0 x1 x2).2.1 S1x2048.size (by sl_kernel_rfl) y

/-- What case A leaves in the first running-minimum buffer. -/
def sout0_A_0 (c : Dev nD) (i : grid0.Coords) (arg2 : Memref sig .tc .vmem S1x3x2048 .f32) (harg2 : arg2.IsWhole) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x2048 .f32) (harg6 : arg6.IsWhole) (arg7 : Memref sig .tc .vmem S1x2048 .f32) (harg7 : arg7.IsWhole) (hc0 : cond0_0 i) (hc1 : ¬cond0_1 i) (hc2 : ¬cond0_2 i) (x0 : Vec F S1x3x2048 .f32) (x1 : Vec F S1x1024x3 .f32) (x2 : Vec F S1x1024x3 .f32) : Vec F S1x2048 .f32 :=
  VS0_0.read (Elt F) (VS0_0.writes (Elt F) VS0_0.junk (kernelRun0_A c i arg2 harg2 arg3 harg3 arg4 harg4 arg5 harg5 arg6 harg6 arg7 harg7 hc0 hc1 hc2 x0 x1 x2).2.1)

theorem scover0_A_1 (c : Dev nD) (i : grid0.Coords) (arg2 : Memref sig .tc .vmem S1x3x2048 .f32) (harg2 : arg2.IsWhole) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x2048 .f32) (harg6 : arg6.IsWhole) (arg7 : Memref sig .tc .vmem S1x2048 .f32) (harg7 : arg7.IsWhole) (hc0 : cond0_0 i) (hc1 : ¬cond0_1 i) (hc2 : ¬cond0_2 i) (x0 : Vec F S1x3x2048 .f32) (x1 : Vec F S1x1024x3 .f32) (x2 : Vec F S1x1024x3 .f32) (y : S1x2048.Idx) :
    ∃ pc ∈ (kernelRun0_A c i arg2 harg2 arg3 harg3 arg4 harg4 arg5 harg5 arg6 harg6 arg7 harg7 hc0 hc1 hc2 x0 x1 x2).2.2.1, y ∈ pc.1.set :=
  View.cover_of_tiledL (kernelRun0_A c i arg2 harg2 arg3 harg3 arg4 harg4 arg5 harg5 arg6 harg6 arg7 harg7 hc0 hc1 hc2 x0 x1 x2).2.2.1 S1x2048.size (by sl_kernel_rfl) y

/-- What case A leaves in the second running-minimum buffer. -/
def sout0_A_1 (c : Dev nD) (i : grid0.Coords) (arg2 : Memref sig .tc .vmem S1x3x2048 .f32) (harg2 : arg2.IsWhole) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x2048 .f32) (harg6 : arg6.IsWhole) (arg7 : Memref sig .tc .vmem S1x2048 .f32) (harg7 : arg7.IsWhole) (hc0 : cond0_0 i) (hc1 : ¬cond0_1 i) (hc2 : ¬cond0_2 i) (x0 : Vec F S1x3x2048 .f32) (x1 : Vec F S1x1024x3 .f32) (x2 : Vec F S1x1024x3 .f32) : Vec F S1x2048 .f32 :=
  VS0_1.read (Elt F) (VS0_1.writes (Elt F) VS0_1.junk (kernelRun0_A c i arg2 harg2 arg3 harg3 arg4 harg4 arg5 harg5 arg6 harg6 arg7 harg7 hc0 hc1 hc2 x0 x1 x2).2.2.1)

/-- What case B leaves in the output block's staging buffer (nothing is stored: a placeholder nobody consults). -/
def out0_B_3 (c : Dev nD) (i : grid0.Coords) (arg2 : Memref sig .tc .vmem S1x3x2048 .f32) (harg2 : arg2.IsWhole) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x2048 .f32) (harg6 : arg6.IsWhole) (arg7 : Memref sig .tc .vmem S1x2048 .f32) (harg7 : arg7.IsWhole) (hc0 : ¬cond0_0 i) (hc1 : cond0_1 i) (hc2 : ¬cond0_2 i) (x0 : Vec F S1x3x2048 .f32) (x1 : Vec F S1x1024x3 .f32) (x2 : Vec F S1x1024x3 .f32) (xs0 xs1 : Vec F S1x2048 .f32) : Vec F S1x1x1 .f32 :=
  VO0_3.read (Elt F) (VO0_3.writes (Elt F) VO0_3.junk (kernelRun0_B c i arg2 harg2 arg3 harg3 arg4 harg4 arg5 harg5 arg6 harg6 arg7 harg7 hc0 hc1 hc2 x0 x1 x2 xs0 xs1).1)

theorem scover0_B_0 (c : Dev nD) (i : grid0.Coords) (arg2 : Memref sig .tc .vmem S1x3x2048 .f32) (harg2 : arg2.IsWhole) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x2048 .f32) (harg6 : arg6.IsWhole) (arg7 : Memref sig .tc .vmem S1x2048 .f32) (harg7 : arg7.IsWhole) (hc0 : ¬cond0_0 i) (hc1 : cond0_1 i) (hc2 : ¬cond0_2 i) (x0 : Vec F S1x3x2048 .f32) (x1 : Vec F S1x1024x3 .f32) (x2 : Vec F S1x1024x3 .f32) (xs0 xs1 : Vec F S1x2048 .f32) (y : S1x2048.Idx) :
    ∃ pc ∈ (kernelRun0_B c i arg2 harg2 arg3 harg3 arg4 harg4 arg5 harg5 arg6 harg6 arg7 harg7 hc0 hc1 hc2 x0 x1 x2 xs0 xs1).2.1, y ∈ pc.1.set :=
  View.cover_of_tiledL (kernelRun0_B c i arg2 harg2 arg3 harg3 arg4 harg4 arg5 harg5 arg6 harg6 arg7 harg7 hc0 hc1 hc2 x0 x1 x2 xs0 xs1).2.1 S1x2048.size (by sl_kernel_rfl) y

/-- What case B leaves in the first running-minimum buffer. -/
def sout0_B_0 (c : Dev nD) (i : grid0.Coords) (arg2 : Memref sig .tc .vmem S1x3x2048 .f32) (harg2 : arg2.IsWhole) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x2048 .f32) (harg6 : arg6.IsWhole) (arg7 : Memref sig .tc .vmem S1x2048 .f32) (harg7 : arg7.IsWhole) (hc0 : ¬cond0_0 i) (hc1 : cond0_1 i) (hc2 : ¬cond0_2 i) (x0 : Vec F S1x3x2048 .f32) (x1 : Vec F S1x1024x3 .f32) (x2 : Vec F S1x1024x3 .f32) (xs0 xs1 : Vec F S1x2048 .f32) : Vec F S1x2048 .f32 :=
  VS0_0.read (Elt F) (VS0_0.writes (Elt F) VS0_0.junk (kernelRun0_B c i arg2 harg2 arg3 harg3 arg4 harg4 arg5 harg5 arg6 harg6 arg7 harg7 hc0 hc1 hc2 x0 x1 x2 xs0 xs1).2.1)

theorem scover0_B_1 (c : Dev nD) (i : grid0.Coords) (arg2 : Memref sig .tc .vmem S1x3x2048 .f32) (harg2 : arg2.IsWhole) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x2048 .f32) (harg6 : arg6.IsWhole) (arg7 : Memref sig .tc .vmem S1x2048 .f32) (harg7 : arg7.IsWhole) (hc0 : ¬cond0_0 i) (hc1 : cond0_1 i) (hc2 : ¬cond0_2 i) (x0 : Vec F S1x3x2048 .f32) (x1 : Vec F S1x1024x3 .f32) (x2 : Vec F S1x1024x3 .f32) (xs0 xs1 : Vec F S1x2048 .f32) (y : S1x2048.Idx) :
    ∃ pc ∈ (kernelRun0_B c i arg2 harg2 arg3 harg3 arg4 harg4 arg5 harg5 arg6 harg6 arg7 harg7 hc0 hc1 hc2 x0 x1 x2 xs0 xs1).2.2.1, y ∈ pc.1.set :=
  View.cover_of_tiledL (kernelRun0_B c i arg2 harg2 arg3 harg3 arg4 harg4 arg5 harg5 arg6 harg6 arg7 harg7 hc0 hc1 hc2 x0 x1 x2 xs0 xs1).2.2.1 S1x2048.size (by sl_kernel_rfl) y

/-- What case B leaves in the second running-minimum buffer. -/
def sout0_B_1 (c : Dev nD) (i : grid0.Coords) (arg2 : Memref sig .tc .vmem S1x3x2048 .f32) (harg2 : arg2.IsWhole) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x2048 .f32) (harg6 : arg6.IsWhole) (arg7 : Memref sig .tc .vmem S1x2048 .f32) (harg7 : arg7.IsWhole) (hc0 : ¬cond0_0 i) (hc1 : cond0_1 i) (hc2 : ¬cond0_2 i) (x0 : Vec F S1x3x2048 .f32) (x1 : Vec F S1x1024x3 .f32) (x2 : Vec F S1x1024x3 .f32) (xs0 xs1 : Vec F S1x2048 .f32) : Vec F S1x2048 .f32 :=
  VS0_1.read (Elt F) (VS0_1.writes (Elt F) VS0_1.junk (kernelRun0_B c i arg2 harg2 arg3 harg3 arg4 harg4 arg5 harg5 arg6 harg6 arg7 harg7 hc0 hc1 hc2 x0 x1 x2 xs0 xs1).2.2.1)

/-- At the last chunk the one store covers the output block. -/
theorem cover0_C_3 (c : Dev nD) (i : grid0.Coords) (arg2 : Memref sig .tc .vmem S1x3x2048 .f32) (harg2 : arg2.IsWhole) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x2048 .f32) (harg6 : arg6.IsWhole) (arg7 : Memref sig .tc .vmem S1x2048 .f32) (harg7 : arg7.IsWhole) (hc0 : ¬cond0_0 i) (hc1 : cond0_1 i) (hc2 : cond0_2 i) (x0 : Vec F S1x3x2048 .f32) (x1 : Vec F S1x1024x3 .f32) (x2 : Vec F S1x1024x3 .f32) (xs0 xs1 : Vec F S1x2048 .f32) (y : S1x1x1.Idx) :
    ∃ pc ∈ (kernelRun0_C c i arg2 harg2 arg3 harg3 arg4 harg4 arg5 harg5 arg6 harg6 arg7 harg7 hc0 hc1 hc2 x0 x1 x2 xs0 xs1).1, y ∈ pc.1.set :=
  View.cover_of_tiledL (kernelRun0_C c i arg2 harg2 arg3 harg3 arg4 harg4 arg5 harg5 arg6 harg6 arg7 harg7 hc0 hc1 hc2 x0 x1 x2 xs0 xs1).1 S1x1x1.size (by sl_kernel_rfl) y

/-- What case C leaves in the output block's staging buffer. -/
def out0_C_3 (c : Dev nD) (i : grid0.Coords) (arg2 : Memref sig .tc .vmem S1x3x2048 .f32) (harg2 : arg2.IsWhole) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x2048 .f32) (harg6 : arg6.IsWhole) (arg7 : Memref sig .tc .vmem S1x2048 .f32) (harg7 : arg7.IsWhole) (hc0 : ¬cond0_0 i) (hc1 : cond0_1 i) (hc2 : cond0_2 i) (x0 : Vec F S1x3x2048 .f32) (x1 : Vec F S1x1024x3 .f32) (x2 : Vec F S1x1024x3 .f32) (xs0 xs1 : Vec F S1x2048 .f32) : Vec F S1x1x1 .f32 :=
  VO0_3.read (Elt F) (VO0_3.writes (Elt F) VO0_3.junk (kernelRun0_C c i arg2 harg2 arg3 harg3 arg4 harg4 arg5 harg5 arg6 harg6 arg7 harg7 hc0 hc1 hc2 x0 x1 x2 xs0 xs1).1)

theorem scover0_C_0 (c : Dev nD) (i : grid0.Coords) (arg2 : Memref sig .tc .vmem S1x3x2048 .f32) (harg2 : arg2.IsWhole) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x2048 .f32) (harg6 : arg6.IsWhole) (arg7 : Memref sig .tc .vmem S1x2048 .f32) (harg7 : arg7.IsWhole) (hc0 : ¬cond0_0 i) (hc1 : cond0_1 i) (hc2 : cond0_2 i) (x0 : Vec F S1x3x2048 .f32) (x1 : Vec F S1x1024x3 .f32) (x2 : Vec F S1x1024x3 .f32) (xs0 xs1 : Vec F S1x2048 .f32) (y : S1x2048.Idx) :
    ∃ pc ∈ (kernelRun0_C c i arg2 harg2 arg3 harg3 arg4 harg4 arg5 harg5 arg6 harg6 arg7 harg7 hc0 hc1 hc2 x0 x1 x2 xs0 xs1).2.1, y ∈ pc.1.set :=
  View.cover_of_tiledL (kernelRun0_C c i arg2 harg2 arg3 harg3 arg4 harg4 arg5 harg5 arg6 harg6 arg7 harg7 hc0 hc1 hc2 x0 x1 x2 xs0 xs1).2.1 S1x2048.size (by sl_kernel_rfl) y

/-- What case C leaves in the first running-minimum buffer. -/
def sout0_C_0 (c : Dev nD) (i : grid0.Coords) (arg2 : Memref sig .tc .vmem S1x3x2048 .f32) (harg2 : arg2.IsWhole) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x2048 .f32) (harg6 : arg6.IsWhole) (arg7 : Memref sig .tc .vmem S1x2048 .f32) (harg7 : arg7.IsWhole) (hc0 : ¬cond0_0 i) (hc1 : cond0_1 i) (hc2 : cond0_2 i) (x0 : Vec F S1x3x2048 .f32) (x1 : Vec F S1x1024x3 .f32) (x2 : Vec F S1x1024x3 .f32) (xs0 xs1 : Vec F S1x2048 .f32) : Vec F S1x2048 .f32 :=
  VS0_0.read (Elt F) (VS0_0.writes (Elt F) VS0_0.junk (kernelRun0_C c i arg2 harg2 arg3 harg3 arg4 harg4 arg5 harg5 arg6 harg6 arg7 harg7 hc0 hc1 hc2 x0 x1 x2 xs0 xs1).2.1)

theorem scover0_C_1 (c : Dev nD) (i : grid0.Coords) (arg2 : Memref sig .tc .vmem S1x3x2048 .f32) (harg2 : arg2.IsWhole) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x2048 .f32) (harg6 : arg6.IsWhole) (arg7 : Memref sig .tc .vmem S1x2048 .f32) (harg7 : arg7.IsWhole) (hc0 : ¬cond0_0 i) (hc1 : cond0_1 i) (hc2 : cond0_2 i) (x0 : Vec F S1x3x2048 .f32) (x1 : Vec F S1x1024x3 .f32) (x2 : Vec F S1x1024x3 .f32) (xs0 xs1 : Vec F S1x2048 .f32) (y : S1x2048.Idx) :
    ∃ pc ∈ (kernelRun0_C c i arg2 harg2 arg3 harg3 arg4 harg4 arg5 harg5 arg6 harg6 arg7 harg7 hc0 hc1 hc2 x0 x1 x2 xs0 xs1).2.2.1, y ∈ pc.1.set :=
  View.cover_of_tiledL (kernelRun0_C c i arg2 harg2 arg3 harg3 arg4 harg4 arg5 harg5 arg6 harg6 arg7 harg7 hc0 hc1 hc2 x0 x1 x2 xs0 xs1).2.2.1 S1x2048.size (by sl_kernel_rfl) y

/-- What case C leaves in the second running-minimum buffer. -/
def sout0_C_1 (c : Dev nD) (i : grid0.Coords) (arg2 : Memref sig .tc .vmem S1x3x2048 .f32) (harg2 : arg2.IsWhole) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x2048 .f32) (harg6 : arg6.IsWhole) (arg7 : Memref sig .tc .vmem S1x2048 .f32) (harg7 : arg7.IsWhole) (hc0 : ¬cond0_0 i) (hc1 : cond0_1 i) (hc2 : cond0_2 i) (x0 : Vec F S1x3x2048 .f32) (x1 : Vec F S1x1024x3 .f32) (x2 : Vec F S1x1024x3 .f32) (xs0 xs1 : Vec F S1x2048 .f32) : Vec F S1x2048 .f32 :=
  VS0_1.read (Elt F) (VS0_1.writes (Elt F) VS0_1.junk (kernelRun0_C c i arg2 harg2 arg3 harg3 arg4 harg4 arg5 harg5 arg6 harg6 arg7 harg7 hc0 hc1 hc2 x0 x1 x2 xs0 xs1).2.2.1)

/-! ## The cases over the points -/

theorem cA1 (t : Fin cfg0.N) (h0 : t.val % 8 = 0) : ¬cond0_1 (grid0.coords t) := fun h => (hcond0_1 t).mp h h0
theorem cA2 (t : Fin cfg0.N) (h0 : t.val % 8 = 0) : ¬cond0_2 (grid0.coords t) := fun h => by have := (hcond0_2 t).mp h; omega
theorem cB0 (t : Fin cfg0.N) (h0 : ¬ t.val % 8 = 0) : ¬cond0_0 (grid0.coords t) := fun h => h0 ((hcond0_0 t).mp h)
theorem cB2 (t : Fin cfg0.N) (h2 : ¬ t.val % 8 = 7) : ¬cond0_2 (grid0.coords t) := fun h => h2 ((hcond0_2 t).mp h)

/-- The output block's buffer and the two running minima after a point of chunk 0. -/
def stepA (c : Dev nD) (t : Fin cfg0.N) (h0 : t.val % 8 = 0) : Vec F S1x1x1 .f32 × Vec F S1x2048 .f32 × Vec F S1x2048 .f32 :=
  (out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (cA1 t h0) (cA2 t h0) (iblk m c 0 t) (iblk m c 1 t) (iblk m c 2 t), sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (cA1 t h0) (cA2 t h0) (iblk m c 0 t) (iblk m c 1 t) (iblk m c 2 t), sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (cA1 t h0) (cA2 t h0) (iblk m c 0 t) (iblk m c 1 t) (iblk m c 2 t))
/-- After a point of a middle chunk, over what the point before left in the scratch buffers. -/
def stepB (c : Dev nD) (t : Fin cfg0.N) (h0 : ¬ t.val % 8 = 0) (h2 : ¬ t.val % 8 = 7) (xs0 xs1 : Vec F S1x2048 .f32) :
    Vec F S1x1x1 .f32 × Vec F S1x2048 .f32 × Vec F S1x2048 .f32 :=
  (out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (cB0 t h0) ((hcond0_1 t).mpr h0) (cB2 t h2) (iblk m c 0 t) (iblk m c 1 t) (iblk m c 2 t) xs0 xs1, sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (cB0 t h0) ((hcond0_1 t).mpr h0) (cB2 t h2) (iblk m c 0 t) (iblk m c 1 t) (iblk m c 2 t) xs0 xs1, sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (cB0 t h0) ((hcond0_1 t).mpr h0) (cB2 t h2) (iblk m c 0 t) (iblk m c 1 t) (iblk m c 2 t) xs0 xs1)
/-- After a point of the last chunk. -/
def stepC (c : Dev nD) (t : Fin cfg0.N) (h0 : ¬ t.val % 8 = 0) (h2 : t.val % 8 = 7) (xs0 xs1 : Vec F S1x2048 .f32) :
    Vec F S1x1x1 .f32 × Vec F S1x2048 .f32 × Vec F S1x2048 .f32 :=
  (out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (cB0 t h0) ((hcond0_1 t).mpr h0) ((hcond0_2 t).mpr h2) (iblk m c 0 t) (iblk m c 1 t) (iblk m c 2 t) xs0 xs1, sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (cB0 t h0) ((hcond0_1 t).mpr h0) ((hcond0_2 t).mpr h2) (iblk m c 0 t) (iblk m c 1 t) (iblk m c 2 t) xs0 xs1, sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (cB0 t h0) ((hcond0_1 t).mpr h0) ((hcond0_2 t).mpr h2) (iblk m c 0 t) (iblk m c 1 t) (iblk m c 2 t) xs0 xs1)

/-- THE ACCUMULATION: what the output block's buffer and the two scratch buffers hold after the body at position n. -/
def outsAt0 (c : Dev nD) : (n : ℕ) → n < cfg0.N → Vec F S1x1x1 .f32 × Vec F S1x2048 .f32 × Vec F S1x2048 .f32
  | 0, hn => stepA m c ⟨0, hn⟩ (Nat.zero_mod _)
  | n + 1, hn =>
    if h0 : (n + 1) % 8 = 0 then stepA m c ⟨n + 1, hn⟩ h0
    else if h2 : (n + 1) % 8 = 7 then
      stepC m c ⟨n + 1, hn⟩ h0 h2 (outsAt0 c n (Nat.lt_of_succ_lt hn)).2.1 (outsAt0 c n (Nat.lt_of_succ_lt hn)).2.2
    else
      stepB m c ⟨n + 1, hn⟩ h0 h2 (outsAt0 c n (Nat.lt_of_succ_lt hn)).2.1 (outsAt0 c n (Nat.lt_of_succ_lt hn)).2.2

theorem outsAt0_A (c : Dev nD) (t : Fin cfg0.N) (h0 : t.val % 8 = 0) :
    outsAt0 m c t.val t.isLt = stepA m c t h0 := by
  obtain ⟨n, hn⟩ := t
  cases n with
  | zero => rfl
  | succ n => exact dif_pos h0

theorem outsAt0_B (c : Dev nD) (t : Fin cfg0.N) (h0 : ¬ t.val % 8 = 0) (h2 : ¬ t.val % 8 = 7) :
    outsAt0 m c t.val t.isLt = stepB m c t h0 h2 (outsAt0 m c (t.val - 1) (Nat.lt_of_le_of_lt (Nat.sub_le _ _) t.isLt)).2.1
      (outsAt0 m c (t.val - 1) (Nat.lt_of_le_of_lt (Nat.sub_le _ _) t.isLt)).2.2 := by
  obtain ⟨n, hn⟩ := t
  cases n with
  | zero => exact absurd (Nat.zero_mod _) h0
  | succ n => exact (dif_neg h0).trans (dif_neg h2)

theorem outsAt0_C (c : Dev nD) (t : Fin cfg0.N) (h0 : ¬ t.val % 8 = 0) (h2 : t.val % 8 = 7) :
    outsAt0 m c t.val t.isLt = stepC m c t h0 h2 (outsAt0 m c (t.val - 1) (Nat.lt_of_le_of_lt (Nat.sub_le _ _) t.isLt)).2.1
      (outsAt0 m c (t.val - 1) (Nat.lt_of_le_of_lt (Nat.sub_le _ _) t.isLt)).2.2 := by
  obtain ⟨n, hn⟩ := t
  cases n with
  | zero => exact absurd (Nat.zero_mod _) h0
  | succ n => exact (dif_neg h0).trans (dif_pos h2)

/-! ## The region's invariant -/

/-- Before the first point: the two scratch buffers at anything. Before any later point: at what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 8000000 in
/-- The body at any point: by the chunk coordinate the point is in one of the three cases, and that case's run
    applies; the invariant hands the body the scratch buffers (at anything before the first point, else at what the
    point before left) and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 8 = 0
  · -- chunk 0
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3 t (cA2 t h0)) (noFlush0_3 t (cA2 t h0))]
      rw [outsAt0_A m c t h0]
      unfold stepA sout0_A_0 sout0_A_1; (try dsimp only)
      by_cases hz : t.val = 0
      · rw [PhiS_castSucc m c t, PhiS_zero m c _ _ hz, PhiA0_eq]
        iintro ⟨⟨⟨HS0, HS1⟩, Hg⟩, Ho, ⟨%d0, H0⟩, ⟨%d1, H1⟩, ⟨%d2, H2⟩, ⟨%d3, H3⟩⟩
        iapply ((kernelRun0_A c (grid0.coords t) _ _ _ _ _ _ _ _ _ _ _ _ ((hcond0_0 t).mpr h0) (cA1 t h0) (cA2 t h0) (iblk m c 0 t) (iblk m c 1 t) (iblk m c 2 t)).2.2.2 _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ )
            · unfold owns; iexists _; isplitr
              swap; · iexact HS1
              ipureintro; exact View.read_writes_of_cover _ _ _ _ _ (scover0_A_1 c _ _ _ _ _ _ _ _ _ _ _ _ _ _ _ _ _ _ _ )
          iexact Hg
        isplitl [Ho]; · iexact Ho
        isplitl [H0]; · iexact H0
        isplitl [H1]; · iexact H1
        isplitl [H2]; · iexact H2
        iexists _; iexact H3
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩⟩
        iapply ((kernelRun0_A c (grid0.coords t) _ _ _ _ _ _ _ _ _ _ _ _ ((hcond0_0 t).mpr h0) (cA1 t h0) (cA2 t h0) (iblk m c 0 t) (iblk m c 1 t) (iblk m c 2 t)).2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ )
            · unfold owns; iexists _; isplitr
              swap; · iexact HS1
              ipureintro; exact View.read_writes_of_cover _ _ _ _ _ (scover0_A_1 c _ _ _ _ _ _ _ _ _ _ _ _ _ _ _ _ _ _ _ )
          iexact Hg
        isplitl [Ho]; · iexact Ho
        isplitl [H0]; · iexact H0
        isplitl [H1]; · iexact H1
        isplitl [H2]; · iexact H2
        iexists _; iexact H3
  · have hz : t.val ≠ 0 := fun h => h0 (by rw [h])
    by_cases h2 : t.val % 8 = 7
    · -- the last chunk
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t ((hcond0_2 t).mpr h2)], after0_3]
      rw [outsAt0_C m c t h0 h2]
      unfold stepC out0_C_3 sout0_C_0 sout0_C_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩⟩
      iapply ((kernelRun0_C c (grid0.coords t) _ _ _ _ _ _ _ _ _ _ _ _ (cB0 t h0) ((hcond0_1 t).mpr h0) ((hcond0_2 t).mpr h2) (iblk m c 0 t) (iblk m c 1 t) (iblk m c 2 t) _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ )
          · unfold owns; iexists _; isplitr
            swap; · iexact HS1
            ipureintro; exact View.read_writes_of_cover _ _ _ _ _ (scover0_C_1 c _ _ _ _ _ _ _ _ _ _ _ _ _ _ _ _ _ _ _ _ _ )
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _ _ _ _ _ )
    · -- a middle chunk
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3 t (cB2 t h2)) (noFlush0_3 t (cB2 t h2))]
      rw [outsAt0_B m c t h0 h2]
      unfold stepB sout0_B_0 sout0_B_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩⟩
      iapply ((kernelRun0_B c (grid0.coords t) _ _ _ _ _ _ _ _ _ _ _ _ (cB0 t h0) ((hcond0_1 t).mpr h0) (cB2 t h2) (iblk m c 0 t) (iblk m c 1 t) (iblk m c 2 t) _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ )
          · unfold owns; iexists _; isplitr
            swap; · iexact HS1
            ipureintro; exact View.read_writes_of_cover _ _ _ _ _ (scover0_B_1 c _ _ _ _ _ _ _ _ _ _ _ _ _ _ _ _ _ _ _ _ _ )
        iexact Hg
      isplitl [Ho]; · iexact Ho
      isplitl [H0]; · iexact H0
      isplitl [H1]; · iexact H1
      isplitl [H2]; · iexact H2
      iexists _; iexact H3

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- Every weakly fair execution of @main terminates, and every final state has every array of the pipeline at what the
    proof data says and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim's post, at any instance of the float operations. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Hand

end
-- ==== Proof.KI.Cases.lean ====
/-
  The body's three branches, decided over the grid. A grid point is t = 8·b + c (b the batch, c the chunk of 1024
  points along the 8192-point axis). The first branch (the running minima are SET) is taken exactly at c = 0, the
  second (the running minima are LOWERED by the chunk's minima) exactly at c ≠ 0, the third (the batch's mean is
  written to the output block) exactly at c = 7. So every point is in one of three cases: c = 0; 0 < c < 7; c = 7.
  The output window is idle and not written back except at c = 7.
-/
import proofs.«137635_j16346645528639_2_alg».proof.Proof.Gen.KernelIdeal.Frame
import proofs.«137635_j16346645528639_2_alg».proof.Proof.Gen.KernelIdeal.Skeleton

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The branch conditions -/

/-- The first branch's condition: the chunk coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The second branch's condition: the chunk coordinate is not 0. -/
abbrev cond0_1 (i : grid0.Coords) : Prop := (Scalar.cmpi .ne (Scalar.extui (Scalar.cmpi .ne (BitVec.ofNat 32 (i 1).val) 0#32)) 0#32) = 1#1
theorem hcond0_1 : ∀ t : Fin cfg0.N, cond0_1 (grid0.coords t) ↔ ¬ t.val % 8 = 0 :=
  (by decide +kernel : ∀ t : Fin grid0.N, cond0_1 (grid0.coords t) ↔ ¬ t.val % 8 = 0)

/-- The third branch's condition: the chunk coordinate is 7, the last. -/
abbrev cond0_2 (i : grid0.Coords) : Prop := k0_cond3 i = 1#1
theorem hcond0_2 : ∀ t : Fin cfg0.N, cond0_2 (grid0.coords t) ↔ t.val % 8 = 7 :=
  (by decide +kernel : ∀ t : Fin grid0.N, cond0_2 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last chunk the output window is idle, -/
theorem idleAt0_3 : ∀ t : Fin cfg0.N, ¬cond0_2 (grid0.coords t) → cfg0.idle 3 (grid0.coords t) = true := by decide +kernel
/-- and its block is not written back; -/
theorem noFlush0_3 : ∀ t : Fin cfg0.N, ¬cond0_2 (grid0.coords t) → (cfg0.win 3).flush t = false := by decide +kernel
/-- at the last chunk it is live. -/
theorem liveAt0_3 : ∀ t : Fin cfg0.N, cond0_2 (grid0.coords t) → cfg0.idle 3 (grid0.coords t) = false := by decide +kernel

/-! ## The memrefs the body is called with -/

/-- One staging buffer of the output window, through which its contents are stated. -/
abbrev VO0_3 : View sig .tc .vmem S1x1x1 .f32 := (Memref.whole cc0_stg3_0 : Memref sig .tc .vmem S1x1x1 .f32).view
abbrev ms0_0 (t : Fin cfg0.N) : Memref sig .tc .vmem S1x3x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024x3 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1 .f32 := win0_3.stage (cfg0.slots t 3)
abbrev hs0_3 (t : Fin cfg0.N) : (ms0_3 t).IsWhole := hstage0_3 ((cfg0.slots t 3).cast nbuf0_3)
/-- The two running-minimum scratch buffers. -/
abbrev scM0_0 : Memref sig .tc .vmem S1x2048 .f32 := Memref.whole cc0_scratch0
abbrev scM0_1 : Memref sig .tc .vmem S1x2048 .f32 := Memref.whole cc0_scratch1
abbrev VS0_0 : View sig .tc .vmem S1x2048 .f32 := scM0_0.view
abbrev VS0_1 : View sig .tc .vmem S1x2048 .f32 := scM0_1.view

/-- The region's invariant with the two scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.KI.RunA.lean ====
/-
  The body at a point with chunk coordinate 0: both running minima are SET to the chunk's minima (one store covering
  each scratch buffer); the output block is not touched.
-/
import proofs.«137635_j16346645528639_2_alg».proof.Proof.KI.Cases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At chunk 0, on whole memrefs — the three inputs at their contents, the output block at contents handed back
    untouched, the two scratch buffers at anything — the body runs, leaving each scratch buffer with the listed
    pieces written (the pieces are found by the run). -/
noncomputable def kernelRun0_A (c : Dev nD) (i : grid0.Coords) (arg2 : Memref sig .tc .vmem S1x3x2048 .f32) (harg2 : arg2.IsWhole) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x2048 .f32) (harg6 : arg6.IsWhole) (arg7 : Memref sig .tc .vmem S1x2048 .f32) (harg7 : arg7.IsWhole)
    (hc0 : cond0_0 i) (hc1 : ¬cond0_1 i) (hc2 : ¬cond0_2 i) (x0 : Vec F S1x3x2048 .f32) (x1 : Vec F S1x1024x3 .f32) (x2 : Vec F S1x1024x3 .f32) :
    Σ' (L3 : List (View.Piece (Elt F) S1x1x1 .f32)) (LS0 : List (View.Piece (Elt F) S1x2048 .f32)), { LS1 : List (View.Piece (Elt F) S1x2048 .f32) //
      ∀ (xi3 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__chamfer_kernel i arg2 harg2 arg3 harg3 arg4 harg4 arg5 harg5 arg6 harg6 arg7 harg7) K } := by
  refine ⟨[], ?_, ?_, fun xi3 E K => ?run⟩
  case run =>
    simp only [cc0__chamfer_kernel_eq_skeleton]; unfold cc0__chamfer_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Hand

end
-- ==== Proof.KI.RunB.lean ====
/-
  The body at a point with chunk coordinate strictly between 0 and 7: each running minimum is LOWERED to the
  lesser of what the point before left and the chunk's minimum; the output block is not touched.
-/
import proofs.«137635_j16346645528639_2_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a middle chunk, the scratch buffers arriving at contents xs0, xs1. -/
noncomputable def kernelRun0_B (c : Dev nD) (i : grid0.Coords) (arg2 : Memref sig .tc .vmem S1x3x2048 .f32) (harg2 : arg2.IsWhole) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x2048 .f32) (harg6 : arg6.IsWhole) (arg7 : Memref sig .tc .vmem S1x2048 .f32) (harg7 : arg7.IsWhole)
    (hc0 : ¬cond0_0 i) (hc1 : cond0_1 i) (hc2 : ¬cond0_2 i) (x0 : Vec F S1x3x2048 .f32) (x1 : Vec F S1x1024x3 .f32) (x2 : Vec F S1x1024x3 .f32) (xs0 xs1 : Vec F S1x2048 .f32) :
    Σ' (L3 : List (View.Piece (Elt F) S1x1x1 .f32)) (LS0 : List (View.Piece (Elt F) S1x2048 .f32)), { LS1 : List (View.Piece (Elt F) S1x2048 .f32) //
      ∀ (xi3 : Vec F S1x1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__chamfer_kernel i arg2 harg2 arg3 harg3 arg4 harg4 arg5 harg5 arg6 harg6 arg7 harg7) K } := by
  refine ⟨[], ?_, ?_, fun xi3 E K => ?run⟩
  case run =>
    simp only [cc0__chamfer_kernel_eq_skeleton]; unfold cc0__chamfer_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    iexists _; iexact HS1

end Cert.KernelIdeal.Hand

end
-- ==== Proof.KI.RunC.lean ====
/-
  The body at a point with chunk coordinate 7, the last: each running minimum is lowered as at a middle chunk, and
  then the batch's mean absolute difference of the two clamped square roots is stored, covering the output block.
-/
import proofs.«137635_j16346645528639_2_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the last chunk, the scratch buffers arriving at contents xs0, xs1, the output block at anything. -/
noncomputable def kernelRun0_C (c : Dev nD) (i : grid0.Coords) (arg2 : Memref sig .tc .vmem S1x3x2048 .f32) (harg2 : arg2.IsWhole) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x2048 .f32) (harg6 : arg6.IsWhole) (arg7 : Memref sig .tc .vmem S1x2048 .f32) (harg7 : arg7.IsWhole)
    (hc0 : ¬cond0_0 i) (hc1 : cond0_1 i) (hc2 : cond0_2 i) (x0 : Vec F S1x3x2048 .f32) (x1 : Vec F S1x1024x3 .f32) (x2 : Vec F S1x1024x3 .f32) (xs0 xs1 : Vec F S1x2048 .f32) :
    Σ' (L3 : List (View.Piece (Elt F) S1x1x1 .f32)) (LS0 : List (View.Piece (Elt F) S1x2048 .f32)), { LS1 : List (View.Piece (Elt F) S1x2048 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__chamfer_kernel i arg2 harg2 arg3 harg3 arg4 harg4 arg5 harg5 arg6 harg6 arg7 harg7) K } := by
  refine ⟨?_, ?_, ?_, fun E K => ?run⟩
  case run =>
    simp only [cc0__chamfer_kernel_eq_skeleton]; unfold cc0__chamfer_kernel_skel
    simp only [k0_part1_eq_skeleton]; unfold k0_part1_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg6.eq_unread hfs0; obtain rfl := harg7.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    iexists _; iexact HS1

end Cert.KernelIdeal.Hand

end
-- ==== Proof.KI.Body.lean ====
/-
  The proof data of the one pipeline and the body obligation. After the body at point t = 8·b + c the two scratch
  buffers hold the running minima over chunks 0..c of batch b (set at c = 0, lowered afterwards), the output block's
  staging buffer holds the batch's mean at c = 7, and the three inputs' buffers hold their blocks. The region's
  invariant carries the two scratch buffers at those contents from each point to the next.
-/
import proofs.«137635_j16346645528639_2_alg».proof.Proof.KI.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- What case A leaves in the output block's staging buffer (nothing is stored: a placeholder nobody consults). -/
def out0_A_3 (c : Dev nD) (i : grid0.Coords) (arg2 : Memref sig .tc .vmem S1x3x2048 .f32) (harg2 : arg2.IsWhole) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x2048 .f32) (harg6 : arg6.IsWhole) (arg7 : Memref sig .tc .vmem S1x2048 .f32) (harg7 : arg7.IsWhole) (hc0 : cond0_0 i) (hc1 : ¬cond0_1 i) (hc2 : ¬cond0_2 i) (x0 : Vec F S1x3x2048 .f32) (x1 : Vec F S1x1024x3 .f32) (x2 : Vec F S1x1024x3 .f32) : Vec F S1x1x1 .f32 :=
  VO0_3.read (Elt F) (VO0_3.writes (Elt F) VO0_3.junk (kernelRun0_A c i arg2 harg2 arg3 harg3 arg4 harg4 arg5 harg5 arg6 harg6 arg7 harg7 hc0 hc1 hc2 x0 x1 x2).1)

theorem scover0_A_0 (c : Dev nD) (i : grid0.Coords) (arg2 : Memref sig .tc .vmem S1x3x2048 .f32) (harg2 : arg2.IsWhole) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x2048 .f32) (harg6 : arg6.IsWhole) (arg7 : Memref sig .tc .vmem S1x2048 .f32) (harg7 : arg7.IsWhole) (hc0 : cond0_0 i) (hc1 : ¬cond0_1 i) (hc2 : ¬cond0_2 i) (x0 : Vec F S1x3x2048 .f32) (x1 : Vec F S1x1024x3 .f32) (x2 : Vec F S1x1024x3 .f32) (y : S1x2048.Idx) :
    ∃ pc ∈ (kernelRun0_A c i arg2 harg2 arg3 harg3 arg4 harg4 arg5 harg5 arg6 harg6 arg7 harg7 hc0 hc1 hc2 x0 x1 x2).2.1, y ∈ pc.1.set :=
  View.cover_of_tiledL (kernelRun0_A c i arg2 harg2 arg3 harg3 arg4 harg4 arg5 harg5 arg6 harg6 arg7 harg7 hc0 hc1 hc2 x0 x1 x2).2.1 S1x2048.size (by sl_kernel_rfl) y

/-- What case A leaves in the first running-minimum buffer. -/
def sout0_A_0 (c : Dev nD) (i : grid0.Coords) (arg2 : Memref sig .tc .vmem S1x3x2048 .f32) (harg2 : arg2.IsWhole) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x2048 .f32) (harg6 : arg6.IsWhole) (arg7 : Memref sig .tc .vmem S1x2048 .f32) (harg7 : arg7.IsWhole) (hc0 : cond0_0 i) (hc1 : ¬cond0_1 i) (hc2 : ¬cond0_2 i) (x0 : Vec F S1x3x2048 .f32) (x1 : Vec F S1x1024x3 .f32) (x2 : Vec F S1x1024x3 .f32) : Vec F S1x2048 .f32 :=
  VS0_0.read (Elt F) (VS0_0.writes (Elt F) VS0_0.junk (kernelRun0_A c i arg2 harg2 arg3 harg3 arg4 harg4 arg5 harg5 arg6 harg6 arg7 harg7 hc0 hc1 hc2 x0 x1 x2).2.1)

theorem scover0_A_1 (c : Dev nD) (i : grid0.Coords) (arg2 : Memref sig .tc .vmem S1x3x2048 .f32) (harg2 : arg2.IsWhole) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x2048 .f32) (harg6 : arg6.IsWhole) (arg7 : Memref sig .tc .vmem S1x2048 .f32) (harg7 : arg7.IsWhole) (hc0 : cond0_0 i) (hc1 : ¬cond0_1 i) (hc2 : ¬cond0_2 i) (x0 : Vec F S1x3x2048 .f32) (x1 : Vec F S1x1024x3 .f32) (x2 : Vec F S1x1024x3 .f32) (y : S1x2048.Idx) :
    ∃ pc ∈ (kernelRun0_A c i arg2 harg2 arg3 harg3 arg4 harg4 arg5 harg5 arg6 harg6 arg7 harg7 hc0 hc1 hc2 x0 x1 x2).2.2.1, y ∈ pc.1.set :=
  View.cover_of_tiledL (kernelRun0_A c i arg2 harg2 arg3 harg3 arg4 harg4 arg5 harg5 arg6 harg6 arg7 harg7 hc0 hc1 hc2 x0 x1 x2).2.2.1 S1x2048.size (by sl_kernel_rfl) y

/-- What case A leaves in the second running-minimum buffer. -/
def sout0_A_1 (c : Dev nD) (i : grid0.Coords) (arg2 : Memref sig .tc .vmem S1x3x2048 .f32) (harg2 : arg2.IsWhole) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x2048 .f32) (harg6 : arg6.IsWhole) (arg7 : Memref sig .tc .vmem S1x2048 .f32) (harg7 : arg7.IsWhole) (hc0 : cond0_0 i) (hc1 : ¬cond0_1 i) (hc2 : ¬cond0_2 i) (x0 : Vec F S1x3x2048 .f32) (x1 : Vec F S1x1024x3 .f32) (x2 : Vec F S1x1024x3 .f32) : Vec F S1x2048 .f32 :=
  VS0_1.read (Elt F) (VS0_1.writes (Elt F) VS0_1.junk (kernelRun0_A c i arg2 harg2 arg3 harg3 arg4 harg4 arg5 harg5 arg6 harg6 arg7 harg7 hc0 hc1 hc2 x0 x1 x2).2.2.1)

/-- What case B leaves in the output block's staging buffer (nothing is stored: a placeholder nobody consults). -/
def out0_B_3 (c : Dev nD) (i : grid0.Coords) (arg2 : Memref sig .tc .vmem S1x3x2048 .f32) (harg2 : arg2.IsWhole) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x2048 .f32) (harg6 : arg6.IsWhole) (arg7 : Memref sig .tc .vmem S1x2048 .f32) (harg7 : arg7.IsWhole) (hc0 : ¬cond0_0 i) (hc1 : cond0_1 i) (hc2 : ¬cond0_2 i) (x0 : Vec F S1x3x2048 .f32) (x1 : Vec F S1x1024x3 .f32) (x2 : Vec F S1x1024x3 .f32) (xs0 xs1 : Vec F S1x2048 .f32) : Vec F S1x1x1 .f32 :=
  VO0_3.read (Elt F) (VO0_3.writes (Elt F) VO0_3.junk (kernelRun0_B c i arg2 harg2 arg3 harg3 arg4 harg4 arg5 harg5 arg6 harg6 arg7 harg7 hc0 hc1 hc2 x0 x1 x2 xs0 xs1).1)

theorem scover0_B_0 (c : Dev nD) (i : grid0.Coords) (arg2 : Memref sig .tc .vmem S1x3x2048 .f32) (harg2 : arg2.IsWhole) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x2048 .f32) (harg6 : arg6.IsWhole) (arg7 : Memref sig .tc .vmem S1x2048 .f32) (harg7 : arg7.IsWhole) (hc0 : ¬cond0_0 i) (hc1 : cond0_1 i) (hc2 : ¬cond0_2 i) (x0 : Vec F S1x3x2048 .f32) (x1 : Vec F S1x1024x3 .f32) (x2 : Vec F S1x1024x3 .f32) (xs0 xs1 : Vec F S1x2048 .f32) (y : S1x2048.Idx) :
    ∃ pc ∈ (kernelRun0_B c i arg2 harg2 arg3 harg3 arg4 harg4 arg5 harg5 arg6 harg6 arg7 harg7 hc0 hc1 hc2 x0 x1 x2 xs0 xs1).2.1, y ∈ pc.1.set :=
  View.cover_of_tiledL (kernelRun0_B c i arg2 harg2 arg3 harg3 arg4 harg4 arg5 harg5 arg6 harg6 arg7 harg7 hc0 hc1 hc2 x0 x1 x2 xs0 xs1).2.1 S1x2048.size (by sl_kernel_rfl) y

/-- What case B leaves in the first running-minimum buffer. -/
def sout0_B_0 (c : Dev nD) (i : grid0.Coords) (arg2 : Memref sig .tc .vmem S1x3x2048 .f32) (harg2 : arg2.IsWhole) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x2048 .f32) (harg6 : arg6.IsWhole) (arg7 : Memref sig .tc .vmem S1x2048 .f32) (harg7 : arg7.IsWhole) (hc0 : ¬cond0_0 i) (hc1 : cond0_1 i) (hc2 : ¬cond0_2 i) (x0 : Vec F S1x3x2048 .f32) (x1 : Vec F S1x1024x3 .f32) (x2 : Vec F S1x1024x3 .f32) (xs0 xs1 : Vec F S1x2048 .f32) : Vec F S1x2048 .f32 :=
  VS0_0.read (Elt F) (VS0_0.writes (Elt F) VS0_0.junk (kernelRun0_B c i arg2 harg2 arg3 harg3 arg4 harg4 arg5 harg5 arg6 harg6 arg7 harg7 hc0 hc1 hc2 x0 x1 x2 xs0 xs1).2.1)

theorem scover0_B_1 (c : Dev nD) (i : grid0.Coords) (arg2 : Memref sig .tc .vmem S1x3x2048 .f32) (harg2 : arg2.IsWhole) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x2048 .f32) (harg6 : arg6.IsWhole) (arg7 : Memref sig .tc .vmem S1x2048 .f32) (harg7 : arg7.IsWhole) (hc0 : ¬cond0_0 i) (hc1 : cond0_1 i) (hc2 : ¬cond0_2 i) (x0 : Vec F S1x3x2048 .f32) (x1 : Vec F S1x1024x3 .f32) (x2 : Vec F S1x1024x3 .f32) (xs0 xs1 : Vec F S1x2048 .f32) (y : S1x2048.Idx) :
    ∃ pc ∈ (kernelRun0_B c i arg2 harg2 arg3 harg3 arg4 harg4 arg5 harg5 arg6 harg6 arg7 harg7 hc0 hc1 hc2 x0 x1 x2 xs0 xs1).2.2.1, y ∈ pc.1.set :=
  View.cover_of_tiledL (kernelRun0_B c i arg2 harg2 arg3 harg3 arg4 harg4 arg5 harg5 arg6 harg6 arg7 harg7 hc0 hc1 hc2 x0 x1 x2 xs0 xs1).2.2.1 S1x2048.size (by sl_kernel_rfl) y

/-- What case B leaves in the second running-minimum buffer. -/
def sout0_B_1 (c : Dev nD) (i : grid0.Coords) (arg2 : Memref sig .tc .vmem S1x3x2048 .f32) (harg2 : arg2.IsWhole) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x2048 .f32) (harg6 : arg6.IsWhole) (arg7 : Memref sig .tc .vmem S1x2048 .f32) (harg7 : arg7.IsWhole) (hc0 : ¬cond0_0 i) (hc1 : cond0_1 i) (hc2 : ¬cond0_2 i) (x0 : Vec F S1x3x2048 .f32) (x1 : Vec F S1x1024x3 .f32) (x2 : Vec F S1x1024x3 .f32) (xs0 xs1 : Vec F S1x2048 .f32) : Vec F S1x2048 .f32 :=
  VS0_1.read (Elt F) (VS0_1.writes (Elt F) VS0_1.junk (kernelRun0_B c i arg2 harg2 arg3 harg3 arg4 harg4 arg5 harg5 arg6 harg6 arg7 harg7 hc0 hc1 hc2 x0 x1 x2 xs0 xs1).2.2.1)

/-- At the last chunk the one store covers the output block. -/
theorem cover0_C_3 (c : Dev nD) (i : grid0.Coords) (arg2 : Memref sig .tc .vmem S1x3x2048 .f32) (harg2 : arg2.IsWhole) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x2048 .f32) (harg6 : arg6.IsWhole) (arg7 : Memref sig .tc .vmem S1x2048 .f32) (harg7 : arg7.IsWhole) (hc0 : ¬cond0_0 i) (hc1 : cond0_1 i) (hc2 : cond0_2 i) (x0 : Vec F S1x3x2048 .f32) (x1 : Vec F S1x1024x3 .f32) (x2 : Vec F S1x1024x3 .f32) (xs0 xs1 : Vec F S1x2048 .f32) (y : S1x1x1.Idx) :
    ∃ pc ∈ (kernelRun0_C c i arg2 harg2 arg3 harg3 arg4 harg4 arg5 harg5 arg6 harg6 arg7 harg7 hc0 hc1 hc2 x0 x1 x2 xs0 xs1).1, y ∈ pc.1.set :=
  View.cover_of_tiledL (kernelRun0_C c i arg2 harg2 arg3 harg3 arg4 harg4 arg5 harg5 arg6 harg6 arg7 harg7 hc0 hc1 hc2 x0 x1 x2 xs0 xs1).1 S1x1x1.size (by sl_kernel_rfl) y

/-- What case C leaves in the output block's staging buffer. -/
def out0_C_3 (c : Dev nD) (i : grid0.Coords) (arg2 : Memref sig .tc .vmem S1x3x2048 .f32) (harg2 : arg2.IsWhole) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x2048 .f32) (harg6 : arg6.IsWhole) (arg7 : Memref sig .tc .vmem S1x2048 .f32) (harg7 : arg7.IsWhole) (hc0 : ¬cond0_0 i) (hc1 : cond0_1 i) (hc2 : cond0_2 i) (x0 : Vec F S1x3x2048 .f32) (x1 : Vec F S1x1024x3 .f32) (x2 : Vec F S1x1024x3 .f32) (xs0 xs1 : Vec F S1x2048 .f32) : Vec F S1x1x1 .f32 :=
  VO0_3.read (Elt F) (VO0_3.writes (Elt F) VO0_3.junk (kernelRun0_C c i arg2 harg2 arg3 harg3 arg4 harg4 arg5 harg5 arg6 harg6 arg7 harg7 hc0 hc1 hc2 x0 x1 x2 xs0 xs1).1)

theorem scover0_C_0 (c : Dev nD) (i : grid0.Coords) (arg2 : Memref sig .tc .vmem S1x3x2048 .f32) (harg2 : arg2.IsWhole) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x2048 .f32) (harg6 : arg6.IsWhole) (arg7 : Memref sig .tc .vmem S1x2048 .f32) (harg7 : arg7.IsWhole) (hc0 : ¬cond0_0 i) (hc1 : cond0_1 i) (hc2 : cond0_2 i) (x0 : Vec F S1x3x2048 .f32) (x1 : Vec F S1x1024x3 .f32) (x2 : Vec F S1x1024x3 .f32) (xs0 xs1 : Vec F S1x2048 .f32) (y : S1x2048.Idx) :
    ∃ pc ∈ (kernelRun0_C c i arg2 harg2 arg3 harg3 arg4 harg4 arg5 harg5 arg6 harg6 arg7 harg7 hc0 hc1 hc2 x0 x1 x2 xs0 xs1).2.1, y ∈ pc.1.set :=
  View.cover_of_tiledL (kernelRun0_C c i arg2 harg2 arg3 harg3 arg4 harg4 arg5 harg5 arg6 harg6 arg7 harg7 hc0 hc1 hc2 x0 x1 x2 xs0 xs1).2.1 S1x2048.size (by sl_kernel_rfl) y

/-- What case C leaves in the first running-minimum buffer. -/
def sout0_C_0 (c : Dev nD) (i : grid0.Coords) (arg2 : Memref sig .tc .vmem S1x3x2048 .f32) (harg2 : arg2.IsWhole) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x2048 .f32) (harg6 : arg6.IsWhole) (arg7 : Memref sig .tc .vmem S1x2048 .f32) (harg7 : arg7.IsWhole) (hc0 : ¬cond0_0 i) (hc1 : cond0_1 i) (hc2 : cond0_2 i) (x0 : Vec F S1x3x2048 .f32) (x1 : Vec F S1x1024x3 .f32) (x2 : Vec F S1x1024x3 .f32) (xs0 xs1 : Vec F S1x2048 .f32) : Vec F S1x2048 .f32 :=
  VS0_0.read (Elt F) (VS0_0.writes (Elt F) VS0_0.junk (kernelRun0_C c i arg2 harg2 arg3 harg3 arg4 harg4 arg5 harg5 arg6 harg6 arg7 harg7 hc0 hc1 hc2 x0 x1 x2 xs0 xs1).2.1)

theorem scover0_C_1 (c : Dev nD) (i : grid0.Coords) (arg2 : Memref sig .tc .vmem S1x3x2048 .f32) (harg2 : arg2.IsWhole) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x2048 .f32) (harg6 : arg6.IsWhole) (arg7 : Memref sig .tc .vmem S1x2048 .f32) (harg7 : arg7.IsWhole) (hc0 : ¬cond0_0 i) (hc1 : cond0_1 i) (hc2 : cond0_2 i) (x0 : Vec F S1x3x2048 .f32) (x1 : Vec F S1x1024x3 .f32) (x2 : Vec F S1x1024x3 .f32) (xs0 xs1 : Vec F S1x2048 .f32) (y : S1x2048.Idx) :
    ∃ pc ∈ (kernelRun0_C c i arg2 harg2 arg3 harg3 arg4 harg4 arg5 harg5 arg6 harg6 arg7 harg7 hc0 hc1 hc2 x0 x1 x2 xs0 xs1).2.2.1, y ∈ pc.1.set :=
  View.cover_of_tiledL (kernelRun0_C c i arg2 harg2 arg3 harg3 arg4 harg4 arg5 harg5 arg6 harg6 arg7 harg7 hc0 hc1 hc2 x0 x1 x2 xs0 xs1).2.2.1 S1x2048.size (by sl_kernel_rfl) y

/-- What case C leaves in the second running-minimum buffer. -/
def sout0_C_1 (c : Dev nD) (i : grid0.Coords) (arg2 : Memref sig .tc .vmem S1x3x2048 .f32) (harg2 : arg2.IsWhole) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x2048 .f32) (harg6 : arg6.IsWhole) (arg7 : Memref sig .tc .vmem S1x2048 .f32) (harg7 : arg7.IsWhole) (hc0 : ¬cond0_0 i) (hc1 : cond0_1 i) (hc2 : cond0_2 i) (x0 : Vec F S1x3x2048 .f32) (x1 : Vec F S1x1024x3 .f32) (x2 : Vec F S1x1024x3 .f32) (xs0 xs1 : Vec F S1x2048 .f32) : Vec F S1x2048 .f32 :=
  VS0_1.read (Elt F) (VS0_1.writes (Elt F) VS0_1.junk (kernelRun0_C c i arg2 harg2 arg3 harg3 arg4 harg4 arg5 harg5 arg6 harg6 arg7 harg7 hc0 hc1 hc2 x0 x1 x2 xs0 xs1).2.2.1)

/-! ## The cases over the points -/

theorem cA1 (t : Fin cfg0.N) (h0 : t.val % 8 = 0) : ¬cond0_1 (grid0.coords t) := fun h => (hcond0_1 t).mp h h0
theorem cA2 (t : Fin cfg0.N) (h0 : t.val % 8 = 0) : ¬cond0_2 (grid0.coords t) := fun h => by have := (hcond0_2 t).mp h; omega
theorem cB0 (t : Fin cfg0.N) (h0 : ¬ t.val % 8 = 0) : ¬cond0_0 (grid0.coords t) := fun h => h0 ((hcond0_0 t).mp h)
theorem cB2 (t : Fin cfg0.N) (h2 : ¬ t.val % 8 = 7) : ¬cond0_2 (grid0.coords t) := fun h => h2 ((hcond0_2 t).mp h)

/-- The output block's buffer and the two running minima after a point of chunk 0. -/
def stepA (c : Dev nD) (t : Fin cfg0.N) (h0 : t.val % 8 = 0) : Vec F S1x1x1 .f32 × Vec F S1x2048 .f32 × Vec F S1x2048 .f32 :=
  (out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (cA1 t h0) (cA2 t h0) (iblk m c 0 t) (iblk m c 1 t) (iblk m c 2 t), sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (cA1 t h0) (cA2 t h0) (iblk m c 0 t) (iblk m c 1 t) (iblk m c 2 t), sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (cA1 t h0) (cA2 t h0) (iblk m c 0 t) (iblk m c 1 t) (iblk m c 2 t))
/-- After a point of a middle chunk, over what the point before left in the scratch buffers. -/
def stepB (c : Dev nD) (t : Fin cfg0.N) (h0 : ¬ t.val % 8 = 0) (h2 : ¬ t.val % 8 = 7) (xs0 xs1 : Vec F S1x2048 .f32) :
    Vec F S1x1x1 .f32 × Vec F S1x2048 .f32 × Vec F S1x2048 .f32 :=
  (out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (cB0 t h0) ((hcond0_1 t).mpr h0) (cB2 t h2) (iblk m c 0 t) (iblk m c 1 t) (iblk m c 2 t) xs0 xs1, sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (cB0 t h0) ((hcond0_1 t).mpr h0) (cB2 t h2) (iblk m c 0 t) (iblk m c 1 t) (iblk m c 2 t) xs0 xs1, sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (cB0 t h0) ((hcond0_1 t).mpr h0) (cB2 t h2) (iblk m c 0 t) (iblk m c 1 t) (iblk m c 2 t) xs0 xs1)
/-- After a point of the last chunk. -/
def stepC (c : Dev nD) (t : Fin cfg0.N) (h0 : ¬ t.val % 8 = 0) (h2 : t.val % 8 = 7) (xs0 xs1 : Vec F S1x2048 .f32) :
    Vec F S1x1x1 .f32 × Vec F S1x2048 .f32 × Vec F S1x2048 .f32 :=
  (out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (cB0 t h0) ((hcond0_1 t).mpr h0) ((hcond0_2 t).mpr h2) (iblk m c 0 t) (iblk m c 1 t) (iblk m c 2 t) xs0 xs1, sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (cB0 t h0) ((hcond0_1 t).mpr h0) ((hcond0_2 t).mpr h2) (iblk m c 0 t) (iblk m c 1 t) (iblk m c 2 t) xs0 xs1, sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (cB0 t h0) ((hcond0_1 t).mpr h0) ((hcond0_2 t).mpr h2) (iblk m c 0 t) (iblk m c 1 t) (iblk m c 2 t) xs0 xs1)

/-- THE ACCUMULATION: what the output block's buffer and the two scratch buffers hold after the body at position n. -/
def outsAt0 (c : Dev nD) : (n : ℕ) → n < cfg0.N → Vec F S1x1x1 .f32 × Vec F S1x2048 .f32 × Vec F S1x2048 .f32
  | 0, hn => stepA m c ⟨0, hn⟩ (Nat.zero_mod _)
  | n + 1, hn =>
    if h0 : (n + 1) % 8 = 0 then stepA m c ⟨n + 1, hn⟩ h0
    else if h2 : (n + 1) % 8 = 7 then
      stepC m c ⟨n + 1, hn⟩ h0 h2 (outsAt0 c n (Nat.lt_of_succ_lt hn)).2.1 (outsAt0 c n (Nat.lt_of_succ_lt hn)).2.2
    else
      stepB m c ⟨n + 1, hn⟩ h0 h2 (outsAt0 c n (Nat.lt_of_succ_lt hn)).2.1 (outsAt0 c n (Nat.lt_of_succ_lt hn)).2.2

theorem outsAt0_A (c : Dev nD) (t : Fin cfg0.N) (h0 : t.val % 8 = 0) :
    outsAt0 m c t.val t.isLt = stepA m c t h0 := by
  obtain ⟨n, hn⟩ := t
  cases n with
  | zero => rfl
  | succ n => exact dif_pos h0

theorem outsAt0_B (c : Dev nD) (t : Fin cfg0.N) (h0 : ¬ t.val % 8 = 0) (h2 : ¬ t.val % 8 = 7) :
    outsAt0 m c t.val t.isLt = stepB m c t h0 h2 (outsAt0 m c (t.val - 1) (Nat.lt_of_le_of_lt (Nat.sub_le _ _) t.isLt)).2.1
      (outsAt0 m c (t.val - 1) (Nat.lt_of_le_of_lt (Nat.sub_le _ _) t.isLt)).2.2 := by
  obtain ⟨n, hn⟩ := t
  cases n with
  | zero => exact absurd (Nat.zero_mod _) h0
  | succ n => exact (dif_neg h0).trans (dif_neg h2)

theorem outsAt0_C (c : Dev nD) (t : Fin cfg0.N) (h0 : ¬ t.val % 8 = 0) (h2 : t.val % 8 = 7) :
    outsAt0 m c t.val t.isLt = stepC m c t h0 h2 (outsAt0 m c (t.val - 1) (Nat.lt_of_le_of_lt (Nat.sub_le _ _) t.isLt)).2.1
      (outsAt0 m c (t.val - 1) (Nat.lt_of_le_of_lt (Nat.sub_le _ _) t.isLt)).2.2 := by
  obtain ⟨n, hn⟩ := t
  cases n with
  | zero => exact absurd (Nat.zero_mod _) h0
  | succ n => exact (dif_neg h0).trans (dif_pos h2)

/-! ## The region's invariant -/

/-- Before the first point: the two scratch buffers at anything. Before any later point: at what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 8000000 in
/-- The body at any point: by the chunk coordinate the point is in one of the three cases, and that case's run
    applies; the invariant hands the body the scratch buffers (at anything before the first point, else at what the
    point before left) and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 8 = 0
  · -- chunk 0
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3 t (cA2 t h0)) (noFlush0_3 t (cA2 t h0))]
      rw [outsAt0_A m c t h0]
      unfold stepA sout0_A_0 sout0_A_1; (try dsimp only)
      by_cases hz : t.val = 0
      · rw [PhiS_castSucc m c t, PhiS_zero m c _ _ hz, PhiA0_eq]
        iintro ⟨⟨⟨HS0, HS1⟩, Hg⟩, Ho, ⟨%d0, H0⟩, ⟨%d1, H1⟩, ⟨%d2, H2⟩, ⟨%d3, H3⟩⟩
        iapply ((kernelRun0_A c (grid0.coords t) _ _ _ _ _ _ _ _ _ _ _ _ ((hcond0_0 t).mpr h0) (cA1 t h0) (cA2 t h0) (iblk m c 0 t) (iblk m c 1 t) (iblk m c 2 t)).2.2.2 _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ )
            · unfold owns; iexists _; isplitr
              swap; · iexact HS1
              ipureintro; exact View.read_writes_of_cover _ _ _ _ _ (scover0_A_1 c _ _ _ _ _ _ _ _ _ _ _ _ _ _ _ _ _ _ _ )
          iexact Hg
        isplitl [Ho]; · iexact Ho
        isplitl [H0]; · iexact H0
        isplitl [H1]; · iexact H1
        isplitl [H2]; · iexact H2
        iexists _; iexact H3
      · rw [PhiS_castSucc m c t, PhiS_pos m c _ _ hz]
        iintro ⟨⟨⟨HS0, HS1⟩, Hg⟩, Ho, ⟨%d0, H0⟩, ⟨%d1, H1⟩, ⟨%d2, H2⟩, ⟨%d3, H3⟩⟩
        iapply ((kernelRun0_A c (grid0.coords t) _ _ _ _ _ _ _ _ _ _ _ _ ((hcond0_0 t).mpr h0) (cA1 t h0) (cA2 t h0) (iblk m c 0 t) (iblk m c 1 t) (iblk m c 2 t)).2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        iintro ⟨H0, H1, H2, H3, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ )
            · unfold owns; iexists _; isplitr
              swap; · iexact HS1
              ipureintro; exact View.read_writes_of_cover _ _ _ _ _ (scover0_A_1 c _ _ _ _ _ _ _ _ _ _ _ _ _ _ _ _ _ _ _ )
          iexact Hg
        isplitl [Ho]; · iexact Ho
        isplitl [H0]; · iexact H0
        isplitl [H1]; · iexact H1
        isplitl [H2]; · iexact H2
        iexists _; iexact H3
  · have hz : t.val ≠ 0 := fun h => h0 (by rw [h])
    by_cases h2 : t.val % 8 = 7
    · -- the last chunk
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [show (dats m 0 c).leavesExact 3 t = owns (c : Thread nD τ) (ms0_3 t) fullShare ((dats m 0 c).after 3 t) from by
        unfold Dat.leavesExact; rw [liveAt0_3 t ((hcond0_2 t).mpr h2)], after0_3]
      rw [outsAt0_C m c t h0 h2]
      unfold stepC out0_C_3 sout0_C_0 sout0_C_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩⟩
      iapply ((kernelRun0_C c (grid0.coords t) _ _ _ _ _ _ _ _ _ _ _ _ (cB0 t h0) ((hcond0_1 t).mpr h0) ((hcond0_2 t).mpr h2) (iblk m c 0 t) (iblk m c 1 t) (iblk m c 2 t) _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ )
          · unfold owns; iexists _; isplitr
            swap; · iexact HS1
            ipureintro; exact View.read_writes_of_cover _ _ _ _ _ (scover0_C_1 c _ _ _ _ _ _ _ _ _ _ _ _ _ _ _ _ _ _ _ _ _ )
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _ _ _ _ _ )
    · -- a middle chunk
      rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t], after0_2]
      rw [Dat.leavesExact_idle (dats m 0 c) 3 t (idleAt0_3 t (cB2 t h2)) (noFlush0_3 t (cB2 t h2))]
      rw [outsAt0_B m c t h0 h2]
      unfold stepB sout0_B_0 sout0_B_1; (try dsimp only)
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩⟩
      iapply ((kernelRun0_B c (grid0.coords t) _ _ _ _ _ _ _ _ _ _ _ _ (cB0 t h0) ((hcond0_1 t).mpr h0) (cB2 t h2) (iblk m c 0 t) (iblk m c 1 t) (iblk m c 2 t) _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ )
          · unfold owns; iexists _; isplitr
            swap; · iexact HS1
            ipureintro; exact View.read_writes_of_cover _ _ _ _ _ (scover0_B_1 c _ _ _ _ _ _ _ _ _ _ _ _ _ _ _ _ _ _ _ _ _ )
        iexact Hg
      isplitl [Ho]; · iexact Ho
      isplitl [H0]; · iexact H0
      isplitl [H1]; · iexact H1
      isplitl [H2]; · iexact H2
      iexists _; iexact H3

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    · iexists _; iexact HS1
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- Every weakly fair execution of @main terminates, and every final state has every array of the pipeline at what the
    proof data says and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim's post, at any instance of the float operations. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Hand

end
-- ==== Proof.KI.Pieces.lean ====
/-
  What each case's stores leave, named: at chunk 0 the two scratch buffers hold the chunk's minima for the two clouds; at a
  later chunk each holds the lesser of what it held and the chunk's minimum; at the last chunk the output block holds the
  mean computed from the two scratch buffers as just lowered.
-/
import proofs.«137635_j16346645528639_2_alg».proof.Proof.KI.Body
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- Chunk 0, first cloud: the chunk's minima. -/
theorem sout_A_0 (c : Dev nD) (i : grid0.Coords) (arg2 : Memref sig .tc .vmem S1x3x2048 .f32) (harg2 : arg2.IsWhole) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x2048 .f32) (harg6 : arg6.IsWhole) (arg7 : Memref sig .tc .vmem S1x2048 .f32) (harg7 : arg7.IsWhole) (hc0 : cond0_0 i) (hc1 : ¬cond0_1 i) (hc2 : ¬cond0_2 i) (x0 : Vec F S1x3x2048 .f32) (x1 : Vec F S1x1024x3 .f32) (x2 : Vec F S1x1024x3 .f32) :
    sout0_A_0 c i arg2 harg2 arg3 harg3 arg4 harg4 arg5 harg5 arg6 harg6 arg7 harg7 hc0 hc1 hc2 x0 x1 x2 = k0_pay2 (k0_pay12 x0 x1) := by
  unfold sout0_A_0
  rw [View.read_writes_eq_canon _ _ _ (scover0_A_0 c i arg2 harg2 arg3 harg3 arg4 harg4 arg5 harg5 arg6 harg6 arg7 harg7 hc0 hc1 hc2 x0 x1 x2)]
  unfold kernelRun0_A
  dsimp only
  rw [View.canon_unit_zero hz2]
  simp only [View.readAt_eq_ld, harg2.read_unread, harg3.read_unread, harg4.read_unread, harg6.read_unread, harg7.read_unread,
    View.ld_unit_zero (S := S1x3x2048) hz3, View.ld_unit_zero (S := S1x1024x3) hz3, View.ld_unit_zero (S := S1x2048) hz2]

/-- Chunk 0, second cloud: the chunk's minima. -/
theorem sout_A_1 (c : Dev nD) (i : grid0.Coords) (arg2 : Memref sig .tc .vmem S1x3x2048 .f32) (harg2 : arg2.IsWhole) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x2048 .f32) (harg6 : arg6.IsWhole) (arg7 : Memref sig .tc .vmem S1x2048 .f32) (harg7 : arg7.IsWhole) (hc0 : cond0_0 i) (hc1 : ¬cond0_1 i) (hc2 : ¬cond0_2 i) (x0 : Vec F S1x3x2048 .f32) (x1 : Vec F S1x1024x3 .f32) (x2 : Vec F S1x1024x3 .f32) :
    sout0_A_1 c i arg2 harg2 arg3 harg3 arg4 harg4 arg5 harg5 arg6 harg6 arg7 harg7 hc0 hc1 hc2 x0 x1 x2 = k0_pay3 (k0_pay8 x0) (k0_pay9 x0) (k0_pay10 x0) (k0_pay11 x0) (k0_pay14 x2) (k0_pay15 x2) (k0_pay16 x2) (k0_pay17 x2) := by
  unfold sout0_A_1
  rw [View.read_writes_eq_canon _ _ _ (scover0_A_1 c i arg2 harg2 arg3 harg3 arg4 harg4 arg5 harg5 arg6 harg6 arg7 harg7 hc0 hc1 hc2 x0 x1 x2)]
  unfold kernelRun0_A
  dsimp only
  rw [View.canon_unit_zero hz2]
  simp only [View.readAt_eq_ld, harg2.read_unread, harg3.read_unread, harg4.read_unread, harg6.read_unread, harg7.read_unread,
    View.ld_unit_zero (S := S1x3x2048) hz3, View.ld_unit_zero (S := S1x1024x3) hz3, View.ld_unit_zero (S := S1x2048) hz2]

/-- A middle chunk, first cloud: the lesser of what the buffer held and the chunk's minima. -/
theorem sout_B_0 (c : Dev nD) (i : grid0.Coords) (arg2 : Memref sig .tc .vmem S1x3x2048 .f32) (harg2 : arg2.IsWhole) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x2048 .f32) (harg6 : arg6.IsWhole) (arg7 : Memref sig .tc .vmem S1x2048 .f32) (harg7 : arg7.IsWhole) (hc0 : ¬cond0_0 i) (hc1 : cond0_1 i) (hc2 : ¬cond0_2 i) (x0 : Vec F S1x3x2048 .f32) (x1 : Vec F S1x1024x3 .f32) (x2 : Vec F S1x1024x3 .f32) (xs0 xs1 : Vec F S1x2048 .f32) :
    sout0_B_0 c i arg2 harg2 arg3 harg3 arg4 harg4 arg5 harg5 arg6 harg6 arg7 harg7 hc0 hc1 hc2 x0 x1 x2 xs0 xs1 = k0_pay4 (k0_pay12 x0 x1) xs0 := by
  unfold sout0_B_0
  rw [View.read_writes_eq_canon _ _ _ (scover0_B_0 c i arg2 harg2 arg3 harg3 arg4 harg4 arg5 harg5 arg6 harg6 arg7 harg7 hc0 hc1 hc2 x0 x1 x2 xs0 xs1)]
  unfold kernelRun0_B
  dsimp only
  rw [View.canon_unit_zero hz2]
  simp only [View.readAt_eq_ld, harg2.read_unread, harg3.read_unread, harg4.read_unread, harg6.read_unread, harg7.read_unread,
    View.ld_unit_zero (S := S1x3x2048) hz3, View.ld_unit_zero (S := S1x1024x3) hz3, View.ld_unit_zero (S := S1x2048) hz2]

/-- A middle chunk, second cloud. -/
theorem sout_B_1 (c : Dev nD) (i : grid0.Coords) (arg2 : Memref sig .tc .vmem S1x3x2048 .f32) (harg2 : arg2.IsWhole) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x2048 .f32) (harg6 : arg6.IsWhole) (arg7 : Memref sig .tc .vmem S1x2048 .f32) (harg7 : arg7.IsWhole) (hc0 : ¬cond0_0 i) (hc1 : cond0_1 i) (hc2 : ¬cond0_2 i) (x0 : Vec F S1x3x2048 .f32) (x1 : Vec F S1x1024x3 .f32) (x2 : Vec F S1x1024x3 .f32) (xs0 xs1 : Vec F S1x2048 .f32) :
    sout0_B_1 c i arg2 harg2 arg3 harg3 arg4 harg4 arg5 harg5 arg6 harg6 arg7 harg7 hc0 hc1 hc2 x0 x1 x2 xs0 xs1 = k0_pay5 (k0_pay8 x0) (k0_pay9 x0) (k0_pay10 x0) (k0_pay11 x0) (k0_pay14 x2) (k0_pay15 x2) (k0_pay16 x2) (k0_pay17 x2) xs1 := by
  unfold sout0_B_1
  rw [View.read_writes_eq_canon _ _ _ (scover0_B_1 c i arg2 harg2 arg3 harg3 arg4 harg4 arg5 harg5 arg6 harg6 arg7 harg7 hc0 hc1 hc2 x0 x1 x2 xs0 xs1)]
  unfold kernelRun0_B
  dsimp only
  rw [View.canon_unit_zero hz2]
  simp only [View.readAt_eq_ld, harg2.read_unread, harg3.read_unread, harg4.read_unread, harg6.read_unread, harg7.read_unread,
    View.ld_unit_zero (S := S1x3x2048) hz3, View.ld_unit_zero (S := S1x1024x3) hz3, View.ld_unit_zero (S := S1x2048) hz2]

/-- The last chunk, first cloud. -/
theorem sout_C_0 (c : Dev nD) (i : grid0.Coords) (arg2 : Memref sig .tc .vmem S1x3x2048 .f32) (harg2 : arg2.IsWhole) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x2048 .f32) (harg6 : arg6.IsWhole) (arg7 : Memref sig .tc .vmem S1x2048 .f32) (harg7 : arg7.IsWhole) (hc0 : ¬cond0_0 i) (hc1 : cond0_1 i) (hc2 : cond0_2 i) (x0 : Vec F S1x3x2048 .f32) (x1 : Vec F S1x1024x3 .f32) (x2 : Vec F S1x1024x3 .f32) (xs0 xs1 : Vec F S1x2048 .f32) :
    sout0_C_0 c i arg2 harg2 arg3 harg3 arg4 harg4 arg5 harg5 arg6 harg6 arg7 harg7 hc0 hc1 hc2 x0 x1 x2 xs0 xs1 = k0_pay4 (k0_pay12 x0 x1) xs0 := by
  unfold sout0_C_0
  rw [View.read_writes_eq_canon _ _ _ (scover0_C_0 c i arg2 harg2 arg3 harg3 arg4 harg4 arg5 harg5 arg6 harg6 arg7 harg7 hc0 hc1 hc2 x0 x1 x2 xs0 xs1)]
  unfold kernelRun0_C
  dsimp only
  sl_unfold_words
  rw [View.canon_unit_zero hz2]
  simp only [View.readAt_eq_ld, harg2.read_unread, harg3.read_unread, harg4.read_unread, harg6.read_unread, harg7.read_unread,
    View.ld_unit_zero (S := S1x3x2048) hz3, View.ld_unit_zero (S := S1x1024x3) hz3, View.ld_unit_zero (S := S1x2048) hz2]

/-- The last chunk, second cloud. -/
theorem sout_C_1 (c : Dev nD) (i : grid0.Coords) (arg2 : Memref sig .tc .vmem S1x3x2048 .f32) (harg2 : arg2.IsWhole) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x2048 .f32) (harg6 : arg6.IsWhole) (arg7 : Memref sig .tc .vmem S1x2048 .f32) (harg7 : arg7.IsWhole) (hc0 : ¬cond0_0 i) (hc1 : cond0_1 i) (hc2 : cond0_2 i) (x0 : Vec F S1x3x2048 .f32) (x1 : Vec F S1x1024x3 .f32) (x2 : Vec F S1x1024x3 .f32) (xs0 xs1 : Vec F S1x2048 .f32) :
    sout0_C_1 c i arg2 harg2 arg3 harg3 arg4 harg4 arg5 harg5 arg6 harg6 arg7 harg7 hc0 hc1 hc2 x0 x1 x2 xs0 xs1 = k0_pay5 (k0_pay8 x0) (k0_pay9 x0) (k0_pay10 x0) (k0_pay11 x0) (k0_pay14 x2) (k0_pay15 x2) (k0_pay16 x2) (k0_pay17 x2) xs1 := by
  unfold sout0_C_1
  rw [View.read_writes_eq_canon _ _ _ (scover0_C_1 c i arg2 harg2 arg3 harg3 arg4 harg4 arg5 harg5 arg6 harg6 arg7 harg7 hc0 hc1 hc2 x0 x1 x2 xs0 xs1)]
  unfold kernelRun0_C
  dsimp only
  sl_unfold_words
  rw [View.canon_unit_zero hz2]
  simp only [View.readAt_eq_ld, harg2.read_unread, harg3.read_unread, harg4.read_unread, harg6.read_unread, harg7.read_unread,
    View.ld_unit_zero (S := S1x3x2048) hz3, View.ld_unit_zero (S := S1x1024x3) hz3, View.ld_unit_zero (S := S1x2048) hz2]

/-- The last chunk: the output block holds the mean computed from the two scratch buffers as this point leaves them. -/
theorem out_C_3 (c : Dev nD) (i : grid0.Coords) (arg2 : Memref sig .tc .vmem S1x3x2048 .f32) (harg2 : arg2.IsWhole) (arg3 : Memref sig .tc .vmem S1x1024x3 .f32) (harg3 : arg3.IsWhole) (arg4 : Memref sig .tc .vmem S1x1024x3 .f32) (harg4 : arg4.IsWhole) (arg5 : Memref sig .tc .vmem S1x1x1 .f32) (harg5 : arg5.IsWhole) (arg6 : Memref sig .tc .vmem S1x2048 .f32) (harg6 : arg6.IsWhole) (arg7 : Memref sig .tc .vmem S1x2048 .f32) (harg7 : arg7.IsWhole) (hc0 : ¬cond0_0 i) (hc1 : cond0_1 i) (hc2 : cond0_2 i) (x0 : Vec F S1x3x2048 .f32) (x1 : Vec F S1x1024x3 .f32) (x2 : Vec F S1x1024x3 .f32) (xs0 xs1 : Vec F S1x2048 .f32) :
    out0_C_3 c i arg2 harg2 arg3 harg3 arg4 harg4 arg5 harg5 arg6 harg6 arg7 harg7 hc0 hc1 hc2 x0 x1 x2 xs0 xs1 = k0_pay6 (k0_pay4 (k0_pay12 x0 x1) xs0) (k0_pay5 (k0_pay8 x0) (k0_pay9 x0) (k0_pay10 x0) (k0_pay11 x0) (k0_pay14 x2) (k0_pay15 x2) (k0_pay16 x2) (k0_pay17 x2) xs1) := by
  unfold out0_C_3
  rw [View.read_writes_eq_canon _ _ _ (cover0_C_3 c i arg2 harg2 arg3 harg3 arg4 harg4 arg5 harg5 arg6 harg6 arg7 harg7 hc0 hc1 hc2 x0 x1 x2 xs0 xs1)]
  unfold kernelRun0_C
  dsimp only
  sl_unfold_words
  rw [View.canon_unit_zero hz3]
  rw [View.readCov_unit_zero (S := S1x2048) _ hz2, View.readCov_unit_zero (S := S1x2048) _ hz2]
  simp only [View.readAt_eq_ld, harg2.read_unread, harg3.read_unread, harg4.read_unread, harg6.read_unread, harg7.read_unread,
    View.ld_unit_zero (S := S1x3x2048) hz3, View.ld_unit_zero (S := S1x1024x3) hz3, View.ld_unit_zero (S := S1x2048) hz2]

end Cert.KernelIdeal.Hand

end
-- ==== Proof.KI.Blocks.lean ====
/-
  The windows' blocks as reads of the argument arrays. At grid point t = 8·b + c the grid-samples window holds batch b
  of the TRANSPOSED samples (coordinate d of sample n at (0, d, n)), each cloud's window holds points 1024·c … 1024·c + 1023
  of batch b, and the output window is the one entry of batch b.
-/
import proofs.«137635_j16346645528639_2_alg».proof.Proof.KI.Pieces
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ)

/-- The batch and the chunk of a grid point. -/
def bOf (t : Fin cfg0.N) : Fin 8 := ⟨t.val / 8, by have := t.isLt; have h : cfg0.N = 64 := N_0; omega⟩
def cOf (t : Fin cfg0.N) : Fin 8 := ⟨t.val % 8, Nat.mod_lt _ (by norm_num)⟩

/-- The printed index maps, decided over the grid. -/
theorem idx_facts : ∀ t : Fin cfg0.N,
    win0_0.index t (0 : Fin 3) = t.val / 8 ∧ win0_0.index t (1 : Fin 3) = 0 ∧ win0_0.index t (2 : Fin 3) = 0
  ∧ win0_1.index t (0 : Fin 3) = t.val / 8 ∧ win0_1.index t (1 : Fin 3) = t.val % 8 ∧ win0_1.index t (2 : Fin 3) = 0
  ∧ win0_2.index t (0 : Fin 3) = t.val / 8 ∧ win0_2.index t (1 : Fin 3) = t.val % 8 ∧ win0_2.index t (2 : Fin 3) = 0
  ∧ win0_3.index t (0 : Fin 3) = t.val / 8 ∧ win0_3.index t (1 : Fin 3) = 0 ∧ win0_3.index t (2 : Fin 3) = 0 :=
  (by decide +kernel : ∀ t : Fin grid0.N, _)

/-- The region finds the transposed samples in the first window's array. -/
theorem V_main_v0 (c : Dev nD) :
    (V m c main_v0 : S8x3x2048.Idx → Elt F .f32)
      = transpose S8x3x2048 [0, 2, 1] (m ((c : Thread nD τ).loc main_arg2)) transposes_S8x2048x3_S8x3x2048_0_2_1 := by
  show StableHlo.after hostOps0 (fun b => m (c, b)) (Proc.devRef .tc main_v0) = _
  after_results

/-- Coordinate d of sample n, batch b, of the transposed samples is the samples' entry (b, n, d). -/
theorem V_main_v0_apply (c : Dev nD) (b : Fin 8) (d : Fin 3) (n : Fin 2048) :
    (V m c main_v0 : S8x3x2048.Idx → Elt F .f32) (ix3 b d n) = m ((c : Thread nD τ).loc main_arg2) (ix3 b n d) := by
  rw [V_main_v0]
  exact transpose_apply _ _ _ (ix3 b d n) (ix3 b n d) (fun a => match a with
    | ⟨0, _⟩ => rfl
    | ⟨1, _⟩ => rfl
    | ⟨2, _⟩ => rfl)

/-- The samples' block at a point: batch b of the transposed samples. -/
theorem iblk0_apply (c : Dev nD) (t : Fin cfg0.N) (d : Fin 3) (n : Fin 2048) :
    (iblk m c 0 t : S1x3x2048.Idx → Elt F .f32) (ix3 0 d n) = m ((c : Thread nD τ).loc main_arg2) (ix3 (bOf t) n d) := by
  rw [← V_main_v0_apply m c (bOf t) d n]
  show V m c main_v0 (((cfg0.win 0).blk t).view.emb (ix3 0 d n)) = _
  refine congrArg (V m c main_v0) ?_
  obtain ⟨e0, e1, e2, -⟩ := idx_facts t
  funext a; apply Fin.ext
  match a with
  | ⟨0, _⟩ => show win0_0.index t (0 : Fin 3) * 1 + 1 * 0 = t.val / 8; omega
  | ⟨1, _⟩ => show win0_0.index t (1 : Fin 3) * 3 + 1 * d.val = d.val; omega
  | ⟨2, _⟩ => show win0_0.index t (2 : Fin 3) * 2048 + 1 * n.val = n.val; omega

/-- The point 1024·c + r of the 8192-point axis. -/
def ptOf (t : Fin cfg0.N) (r : Fin 1024) : Fin 8192 := ⟨(t.val % 8) * 1024 + r.val, by have := r.isLt; have := Nat.mod_lt t.val (by norm_num : 0 < 8); omega⟩

/-- The second cloud argument's block at a point. -/
theorem iblk1_apply (c : Dev nD) (t : Fin cfg0.N) (r : Fin 1024) (d : Fin 3) :
    (iblk m c 1 t : S1x1024x3.Idx → Elt F .f32) (ix3 0 r d) = m ((c : Thread nD τ).loc main_arg1) (ix3 (bOf t) (ptOf t r) d) := by
  rw [← V_main_arg1 m c]
  show V m c main_arg1 (((cfg0.win 1).blk t).view.emb (ix3 0 r d)) = _
  refine congrArg (V m c main_arg1) ?_
  obtain ⟨-, -, -, e0, e1, e2, -⟩ := idx_facts t
  funext a; apply Fin.ext
  match a with
  | ⟨0, _⟩ => show win0_1.index t (0 : Fin 3) * 1 + 1 * 0 = t.val / 8; omega
  | ⟨1, _⟩ => show win0_1.index t (1 : Fin 3) * 1024 + 1 * r.val = (t.val % 8) * 1024 + r.val; omega
  | ⟨2, _⟩ => show win0_1.index t (2 : Fin 3) * 3 + 1 * d.val = d.val; omega

/-- The first cloud argument's block at a point. -/
theorem iblk2_apply (c : Dev nD) (t : Fin cfg0.N) (r : Fin 1024) (d : Fin 3) :
    (iblk m c 2 t : S1x1024x3.Idx → Elt F .f32) (ix3 0 r d) = m ((c : Thread nD τ).loc main_arg0) (ix3 (bOf t) (ptOf t r) d) := by
  rw [← V_main_arg0 m c]
  show V m c main_arg0 (((cfg0.win 2).blk t).view.emb (ix3 0 r d)) = _
  refine congrArg (V m c main_arg0) ?_
  obtain ⟨-, -, -, -, -, -, e0, e1, e2, -⟩ := idx_facts t
  funext a; apply Fin.ext
  match a with
  | ⟨0, _⟩ => show win0_2.index t (0 : Fin 3) * 1 + 1 * 0 = t.val / 8; omega
  | ⟨1, _⟩ => show win0_2.index t (1 : Fin 3) * 1024 + 1 * r.val = (t.val % 8) * 1024 + r.val; omega
  | ⟨2, _⟩ => show win0_2.index t (2 : Fin 3) * 3 + 1 * d.val = d.val; omega

end Cert.KernelIdeal.Hand

end
-- ==== Proof.KI.Steps.lean ====
/-
  The accumulation, point by point, in the body's own terms. After a point of chunk 0 the two scratch buffers hold the
  chunk's minima; after a later point each holds the lesser of what the point before left and the chunk's minimum; and
  after a point of the last chunk the output block holds the mean computed from the two scratch buffers as that point
  leaves them.
-/
import proofs.«137635_j16346645528639_2_alg».proof.Proof.KI.Blocks

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem S0_first (c : Dev nD) (t : Fin cfg0.N) (h0 : t.val % 8 = 0) :
    (outsAt0 m c t.val t.isLt).2.1 = k0_pay2 (k0_pay12 (iblk m c 0 t) (iblk m c 1 t)) := by
  rw [outsAt0_A m c t h0]; unfold stepA; dsimp only
  exact sout_A_0 c (grid0.coords t) (ms0_0 t) (hs0_0 t) (ms0_1 t) (hs0_1 t) (ms0_2 t) (hs0_2 t) (ms0_3 t) (hs0_3 t) scM0_0 (Memref.isWhole_whole cc0_scratch0) scM0_1 (Memref.isWhole_whole cc0_scratch1) ((hcond0_0 t).mpr h0) (cA1 t h0) (cA2 t h0) (iblk m c 0 t) (iblk m c 1 t) (iblk m c 2 t)

theorem S1_first (c : Dev nD) (t : Fin cfg0.N) (h0 : t.val % 8 = 0) :
    (outsAt0 m c t.val t.isLt).2.2 = k0_pay3 (k0_pay8 (iblk m c 0 t)) (k0_pay9 (iblk m c 0 t)) (k0_pay10 (iblk m c 0 t)) (k0_pay11 (iblk m c 0 t)) (k0_pay14 (iblk m c 2 t)) (k0_pay15 (iblk m c 2 t)) (k0_pay16 (iblk m c 2 t)) (k0_pay17 (iblk m c 2 t)) := by
  rw [outsAt0_A m c t h0]; unfold stepA; dsimp only
  exact sout_A_1 c (grid0.coords t) (ms0_0 t) (hs0_0 t) (ms0_1 t) (hs0_1 t) (ms0_2 t) (hs0_2 t) (ms0_3 t) (hs0_3 t) scM0_0 (Memref.isWhole_whole cc0_scratch0) scM0_1 (Memref.isWhole_whole cc0_scratch1) ((hcond0_0 t).mpr h0) (cA1 t h0) (cA2 t h0) (iblk m c 0 t) (iblk m c 1 t) (iblk m c 2 t)

theorem S0_later (c : Dev nD) (t : Fin cfg0.N) (h0 : ¬ t.val % 8 = 0) :
    (outsAt0 m c t.val t.isLt).2.1 = k0_pay4 (k0_pay12 (iblk m c 0 t) (iblk m c 1 t)) (outsAt0 m c (t.val - 1) (Nat.lt_of_le_of_lt (Nat.sub_le _ _) t.isLt)).2.1 := by
  by_cases h2 : t.val % 8 = 7
  · rw [outsAt0_C m c t h0 h2]; unfold stepC; dsimp only
    exact sout_C_0 c (grid0.coords t) (ms0_0 t) (hs0_0 t) (ms0_1 t) (hs0_1 t) (ms0_2 t) (hs0_2 t) (ms0_3 t) (hs0_3 t) scM0_0 (Memref.isWhole_whole cc0_scratch0) scM0_1 (Memref.isWhole_whole cc0_scratch1) (cB0 t h0) ((hcond0_1 t).mpr h0) ((hcond0_2 t).mpr h2) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2
  · rw [outsAt0_B m c t h0 h2]; unfold stepB; dsimp only
    exact sout_B_0 c (grid0.coords t) (ms0_0 t) (hs0_0 t) (ms0_1 t) (hs0_1 t) (ms0_2 t) (hs0_2 t) (ms0_3 t) (hs0_3 t) scM0_0 (Memref.isWhole_whole cc0_scratch0) scM0_1 (Memref.isWhole_whole cc0_scratch1) (cB0 t h0) ((hcond0_1 t).mpr h0) (cB2 t h2) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2

theorem S1_later (c : Dev nD) (t : Fin cfg0.N) (h0 : ¬ t.val % 8 = 0) :
    (outsAt0 m c t.val t.isLt).2.2 = k0_pay5 (k0_pay8 (iblk m c 0 t)) (k0_pay9 (iblk m c 0 t)) (k0_pay10 (iblk m c 0 t)) (k0_pay11 (iblk m c 0 t)) (k0_pay14 (iblk m c 2 t)) (k0_pay15 (iblk m c 2 t)) (k0_pay16 (iblk m c 2 t)) (k0_pay17 (iblk m c 2 t)) (outsAt0 m c (t.val - 1) (Nat.lt_of_le_of_lt (Nat.sub_le _ _) t.isLt)).2.2 := by
  by_cases h2 : t.val % 8 = 7
  · rw [outsAt0_C m c t h0 h2]; unfold stepC; dsimp only
    exact sout_C_1 c (grid0.coords t) (ms0_0 t) (hs0_0 t) (ms0_1 t) (hs0_1 t) (ms0_2 t) (hs0_2 t) (ms0_3 t) (hs0_3 t) scM0_0 (Memref.isWhole_whole cc0_scratch0) scM0_1 (Memref.isWhole_whole cc0_scratch1) (cB0 t h0) ((hcond0_1 t).mpr h0) ((hcond0_2 t).mpr h2) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2
  · rw [outsAt0_B m c t h0 h2]; unfold stepB; dsimp only
    exact sout_B_1 c (grid0.coords t) (ms0_0 t) (hs0_0 t) (ms0_1 t) (hs0_1 t) (ms0_2 t) (hs0_2 t) (ms0_3 t) (hs0_3 t) scM0_0 (Memref.isWhole_whole cc0_scratch0) scM0_1 (Memref.isWhole_whole cc0_scratch1) (cB0 t h0) ((hcond0_1 t).mpr h0) (cB2 t h2) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2

/-- At the last chunk the output block is the mean computed from the two scratch buffers as the point leaves them. -/
theorem out_last (c : Dev nD) (t : Fin cfg0.N) (h2 : t.val % 8 = 7) :
    (outsAt0 m c t.val t.isLt).1 = k0_pay6 (outsAt0 m c t.val t.isLt).2.1 (outsAt0 m c t.val t.isLt).2.2 := by
  have h0 : ¬ t.val % 8 = 0 := by omega
  rw [S0_later m c t h0, S1_later m c t h0, outsAt0_C m c t h0 h2]; unfold stepC; dsimp only
  exact out_C_3 c (grid0.coords t) (ms0_0 t) (hs0_0 t) (ms0_1 t) (hs0_1 t) (ms0_2 t) (hs0_2 t) (ms0_3 t) (hs0_3 t) scM0_0 (Memref.isWhole_whole cc0_scratch0) scM0_1 (Memref.isWhole_whole cc0_scratch1) (cB0 t h0) ((hcond0_1 t).mpr h0) ((hcond0_2 t).mpr h2) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2

end Cert.KernelIdeal.Hand

end
-- ==== Proof.Spec.lean ====
/-
  The function both programs compute, and the one law that joins their two arrangements.

  For a batch b, a grid sample n and a point i of a cloud X, the squared distance is
      sq = (|g|² + |x|²) − 2·⟨g, x⟩,
  each of the three sums of three terms grouped from the left. The nearest distance from sample n to the cloud is the
  least, over the 8192 points, of the clamped root √(max(sq, 0)); the result for batch b is the mean over the 2048 samples
  of |near(preds) − near(gts)|.

  One arrangement takes the least SQUARE first and roots once; the other roots every square and takes the least root.
  They agree because x ↦ √(max(x, 0)) is monotone on the extended reals (and fixes +∞, the minimum's starting value), and a
  monotone map commutes with a finite minimum.
-/
import Idealize.ShloMosaic.PureOps.Ideal
import Idealize.ShloMosaic.PureOps.Ideal.Laws
import Idealize.ShloMosaic.Lib.ValueIdx

noncomputable section

open scoped BigOperators

namespace Cert.Chamfer

open Idealize.ShloMosaic Idealize.ShloMosaic.ValueIdx

/-- The grid samples, [8, 2048, 3], and a point cloud, [8, 8192, 3], as extended reals. -/
abbrev Grid := (⟨3, ![8, 2048, 3]⟩ : Shape).Idx → EReal
abbrev Cloud := (⟨3, ![8, 8192, 3]⟩ : Shape).Idx → EReal

/-- The float words of the two programs that are never evaluated: 2, the clamp's 0, and 2048. -/
abbrev two : EReal := Ideal.ofBits .f32 0x40000000#32
abbrev zeroW : EReal := Ideal.ofBits .f32 0x00000000#32
abbrev n2048 : EReal := Ideal.ofBits .f32 0x45000000#32

/-- The squared distance from grid sample (b, n) to point (b, i) of the cloud X. -/
def sq (g : Grid) (X : Cloud) (b : Fin 8) (n : Fin 2048) (i : Fin 8192) : EReal :=
  ((g (ix3 b n 0) * g (ix3 b n 0) + g (ix3 b n 1) * g (ix3 b n 1) + g (ix3 b n 2) * g (ix3 b n 2))
    + (X (ix3 b i 0) * X (ix3 b i 0) + X (ix3 b i 1) * X (ix3 b i 1) + X (ix3 b i 2) * X (ix3 b i 2)))
  - two * (g (ix3 b n 0) * X (ix3 b i 0) + g (ix3 b n 1) * X (ix3 b i 1) + g (ix3 b n 2) * X (ix3 b i 2))

/-- Clamp at zero, then take the square root. -/
def root (x : EReal) : EReal := Ideal.sqrt (max x zeroW)

/-- The distance from grid sample (b, n) to the nearest point of the cloud: the root of the least squared distance. -/
def near (g : Grid) (X : Cloud) (b : Fin 8) (n : Fin 2048) : EReal :=
  root ((Finset.univ : Finset (Fin 8192)).fold min ⊤ (fun i => sq g X b n i))

/-- The result for batch b: the mean over the samples of the absolute difference of the two nearest distances. -/
def G (gts preds : Cloud) (g : Grid) (b : Fin 8) : EReal :=
  Ideal.div (∑ n : Fin 2048, max (near g preds b n - near g gts b n) (-(near g preds b n - near g gts b n))) n2048

/-! ## The law -/

/-- The square root of the extended reals (−∞ below zero, +∞ at +∞) is monotone. -/
theorem sqrt_mono : Monotone Ideal.sqrt := by
  intro x y hxy
  induction x using EReal.rec with
  | bot => simp
  | top => rw [top_le_iff.mp hxy]
  | coe a =>
    induction y using EReal.rec with
    | bot => exact absurd hxy (by simp)
    | top => simp
    | coe b =>
      have hab : a ≤ b := EReal.coe_le_coe_iff.mp hxy
      simp only [Ideal.sqrt_coe]
      by_cases ha : a < 0
      · simp [ha]
      · have hb : ¬ b < 0 := fun h => ha (lt_of_le_of_lt hab h)
        simp only [ha, hb, if_false]
        exact EReal.coe_le_coe_iff.mpr (Real.sqrt_le_sqrt hab)

theorem root_mono : Monotone root := fun _ _ h => sqrt_mono (max_le_max h le_rfl)

theorem root_top : root ⊤ = ⊤ := by
  unfold root; rw [max_eq_left le_top]; rfl

/-- The clamped root commutes with a finite minimum started at +∞. -/
theorem fold_min_root {ι : Type} (S : Finset ι) (s : ι → EReal) :
    S.fold min ⊤ (fun i => root (s i)) = root (S.fold min ⊤ s) := by
  classical
  induction S using Finset.induction_on with
  | empty => simp [root_top]
  | insert a S ha ih => rw [Finset.fold_insert ha, Finset.fold_insert ha, ih, root_mono.map_min]

/-- The word of +∞ is +∞. -/
theorem top_word : (Ideal.ofBits .f32 0x7F800000#32 : EReal) = ⊤ := by simp [Ideal.ofBits, Ideal.ieee]

end Cert.Chamfer

end
-- ==== Proof.LibRows.lean ====
/-
  Reading a row reduction and the "keep the reduced axis as a unit axis" layouts at explicit coordinates.

  A reduction of an `[m, n]` array over its second axis has, at row `r`, the source indices `(r, k)`,
  `k < n`. A column `[m, 1]` broadcast along the second axis reads `(r, 0)` at `(r, c)`; a row `[1, n]`
  broadcast along the first reads `(0, c)`; a vector `[m]` recast as a column and broadcast reads `r`.
  Folding a maximum from minus infinity: the start value is absorbed by the first comparison.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

open Idealize.ShloMosaic Idealize.ShloMosaic.ValueIdx

namespace Cert.Rows

/-- Row `r` of the reduced array with column `k` put back is the source index `(r, k)`. -/
theorem lift_row {m n : ℕ} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- Minus infinity is the identity of `max` on the extended reals. -/
theorem neg_inf_max (y : EReal) : max (Ideal.ofBits .f32 0xFF800000#32) y = y := by
  simp [Ideal.ofBits, Ideal.ieee]

variable {α : Type}

/-- A column `[m, 1]` broadcast to `[m, n]`, read at `(r, c)`, is the column at `(r, 0)`. -/
theorem bcast_col {m n : ℕ} (hm : m ≠ 1) (v : (⟨2, ![m, 1]⟩ : Shape).Idx → α)
    (h : (⟨2, ![m, 1]⟩ : Shape).Broadcasts ⟨2, ![m, n]⟩) (r : Fin m) (c : Fin n) :
    broadcastTo ⟨2, ![m, n]⟩ v h (ix2 r c) = v (ix2 r 0) :=
  broadcastTo_apply v h (ix2 r c) (ix2 r 0) (fun a => match a with
    | ⟨0, _⟩ => by show r.val = (if m = 1 then 0 else r.val); rw [if_neg hm]
    | ⟨1, _⟩ => by show 0 = (if (1 : ℕ) = 1 then 0 else c.val); rw [if_pos rfl])

/-- A row `[1, n]` broadcast to `[m, n]`, read at `(r, c)`, is the row at `(0, c)`. -/
theorem bcast_row {m n : ℕ} (hn : n ≠ 1) (v : (⟨2, ![1, n]⟩ : Shape).Idx → α)
    (h : (⟨2, ![1, n]⟩ : Shape).Broadcasts ⟨2, ![m, n]⟩) (r : Fin m) (c : Fin n) :
    broadcastTo ⟨2, ![m, n]⟩ v h (ix2 r c) = v (ix2 0 c) :=
  broadcastTo_apply v h (ix2 r c) (ix2 0 c) (fun a => match a with
    | ⟨0, _⟩ => by show 0 = (if (1 : ℕ) = 1 then 0 else r.val); rw [if_pos rfl]
    | ⟨1, _⟩ => by show c.val = (if n = 1 then 0 else c.val); rw [if_neg hn])

/-- A vector `[m]` recast as the column `[m, 1]`, read at `(r, 0)`, is the vector at `r`. -/
theorem cast_col {m : ℕ} (v : (⟨1, ![m]⟩ : Shape).Idx → α) (h : (⟨1, ![m]⟩ : Shape).ShapeCasts ⟨2, ![m, 1]⟩) (r : Fin m) :
    shapeCast ⟨2, ![m, 1]⟩ v h (ix2 r 0) = v (ix1 r) :=
  shapeCast_apply v h (ix2 r 0) (ix1 r) (by
    rw [Shape.rowMajor_val_one, Shape.rowMajor_val_two]; show r.val = r.val * 1 + 0; omega)

end Cert.Rows

end
-- ==== Proof.KI.Pay.lean ====
/-
  The kernel's stored values read at an index, over the extended reals.

  Inside one grid point the kernel holds a [1, 3, 2048] block of the transposed grid samples and a [1, 1024, 3] block of
  points. It slices the three rows of the first and the three columns of the second, forms
      (|g|² + |x|²) − 2·⟨g, x⟩
  on the [1024, 2048] tile by broadcasting rows and columns, and takes the minimum down the 1024 rows, started at +∞.
  The running minima are merged by a pointwise minimum; the last step clamps both at zero, takes roots, and averages the
  absolute difference over the 2048 lanes.
-/
import proofs.«137635_j16346645528639_2_alg».proof.Proof.Spec
import proofs.«137635_j16346645528639_2_alg».proof.Proof.LibRows
import proofs.«137635_j16346645528639_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import Idealize.ShloMosaic.PureOps.Reduce

noncomputable section

open scoped BigOperators

namespace Cert.KernelIdeal.Pay

open Cert.KernelIdeal Cert.KernelIdeal.Gen Cert.Chamfer Idealize.ShloMosaic Idealize.ShloMosaic.ValueIdx

/-- The squared distance inside one grid point's blocks: gT the [1,3,2048] block of the transposed grid samples, ch a
    [1,1024,3] block of points. -/
def sqBlk (gT : Vec Ideal S1x3x2048 .f32) (ch : Vec Ideal S1x1024x3 .f32) (n : Fin 2048) (r : Fin 1024) : EReal :=
  ((gT (ix3 0 0 n) * gT (ix3 0 0 n) + gT (ix3 0 1 n) * gT (ix3 0 1 n) + gT (ix3 0 2 n) * gT (ix3 0 2 n))
    + (ch (ix3 0 r 0) * ch (ix3 0 r 0) + ch (ix3 0 r 1) * ch (ix3 0 r 1) + ch (ix3 0 r 2) * ch (ix3 0 r 2)))
  - two * (gT (ix3 0 0 n) * ch (ix3 0 r 0) + gT (ix3 0 1 n) * ch (ix3 0 r 1) + gT (ix3 0 2 n) * ch (ix3 0 r 2))

/-! ## The stores of the running minima -/

/-- A recast to the same shape changes nothing: the first block's minimum is stored as it is. -/
theorem pay2_eq (v : FVec Ideal S1x2048 .f32) : k0_pay2 (F := Ideal) v = v := by
  unfold k0_pay2
  exact shapeCast_self v _

/-- The second cloud's first minimum is stored as it is. -/
theorem pay3_eq (v2 v3 v4 v9 : FVec Ideal S1x2048 .f32) (v41 v42 v43 v46 : FVec Ideal S1024x1 .f32) :
    k0_pay3 (F := Ideal) v2 v3 v4 v9 v41 v42 v43 v46 = k0_pay1 v2 v3 v4 v9 v41 v42 v43 v46 := by
  unfold k0_pay3
  exact shapeCast_self _ _

/-- A later block merges into the running minimum by a pointwise minimum. -/
theorem pay4_apply (v38 : FVec Ideal S1x2048 .f32) (v77 : Vec Ideal S1x2048 .f32) (j : S1x2048.Idx) :
    k0_pay4 (F := Ideal) v38 v77 j = min (v77 j) (v38 j) := by
  unfold k0_pay4
  rw [shapeCast_self]
  rfl

/-- The same for the second cloud. -/
theorem pay5_apply (v2 v3 v4 v9 : FVec Ideal S1x2048 .f32) (v41 v42 v43 v46 : FVec Ideal S1024x1 .f32)
    (v82 : Vec Ideal S1x2048 .f32) (j : S1x2048.Idx) :
    k0_pay5 (F := Ideal) v2 v3 v4 v9 v41 v42 v43 v46 v82 j = min (v82 j) (k0_pay1 v2 v3 v4 v9 v41 v42 v43 v46 j) := by
  unfold k0_pay5
  rw [shapeCast_self]
  rfl

/-! ## Reading the slices, the column reduction and the tile -/

/-- Lane `c` of the reduced array with row `k` put back is the source index `(k, c)`: a reduction of an `[m, n]` array
    over its FIRST axis has, at column `c`, the source indices `(k, c)`, `k < m`. -/
theorem lift_col {m n : ℕ} (h : (⟨2, ![m, n]⟩ : Shape).Reduces [0] (⟨1, ![n]⟩ : Shape)) (c : Fin n)
    (k : Fin ((⟨2, ![m, n]⟩ : Shape).size 0)) : h.lift (ix1 c) k = ix2 (⟨k.val, k.isLt⟩ : Fin m) c := by
  funext d; apply Fin.ext
  fin_cases d <;> rfl

/-- A minimum over one axis, read over the extended reals: the fold of `min` from the accumulator's value over that
    axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The minimum down the 1024 rows of a [1024, 2048] tile, started at +∞, read at lane `n`. -/
theorem colMin_apply (src : FVec Ideal S1024x2048 .f32) (hφ : FKind.Formats .f32)
    (hacc : (0x7F800000#32 : BitVec 32) = FKind.minimumf.neutral .f32 hφ) (n : Fin 2048) :
    multiReduction (F := Ideal) .minimumf [0] S2048 src 0x7F800000#32 reduces_S1024x2048_S2048 hφ hacc (ix1 n)
      = (Finset.univ : Finset (Fin 1024)).fold min ⊤ (fun r => src (ix2 r n)) := by
  refine (multiReduction_minimumf_single src _ reduces_S1024x2048_S2048 hφ hacc (ix1 n)).trans ?_
  rw [show (FloatOps.ofBits (F := Ideal) FTy.f32 0x7F800000#32) = (⊤ : EReal) from top_word]
  refine congrArg (fun f : Fin 1024 → EReal => Finset.fold min (⊤ : EReal) f (Finset.univ : Finset (Fin 1024)))
    (funext fun r : Fin 1024 => ?_)
  exact congrArg src (lift_col reduces_S1024x2048_S2048 n r)

/-- Row 0 of the grid block, at lane `n`, is the block's first coordinate of sample `n`. -/
theorem pay8_apply (gT : Vec Ideal S1x3x2048 .f32) (n : Fin 2048) : k0_pay8 (F := Ideal) gT (ix2 0 n) = gT (ix3 0 0 n) := by
  unfold k0_pay8 k0_pay7
  refine (slice2_axis0_apply 0 _ _ (0 : Fin 1) n (0 : Fin 3) rfl).trans ?_
  exact shapeCast_1ab_ab_apply gT _ 0 n

/-- Row 1 likewise. -/
theorem pay9_apply (gT : Vec Ideal S1x3x2048 .f32) (n : Fin 2048) : k0_pay9 (F := Ideal) gT (ix2 0 n) = gT (ix3 0 1 n) := by
  unfold k0_pay9 k0_pay7
  refine (slice2_axis0_apply 1 _ _ (0 : Fin 1) n (1 : Fin 3) rfl).trans ?_
  exact shapeCast_1ab_ab_apply gT _ 1 n

/-- Row 2 likewise. -/
theorem pay10_apply (gT : Vec Ideal S1x3x2048 .f32) (n : Fin 2048) : k0_pay10 (F := Ideal) gT (ix2 0 n) = gT (ix3 0 2 n) := by
  unfold k0_pay10 k0_pay7
  refine (slice2_axis0_apply 2 _ _ (0 : Fin 1) n (2 : Fin 3) rfl).trans ?_
  exact shapeCast_1ab_ab_apply gT _ 2 n

/-- The squared norm of grid sample `n`. -/
theorem pay11_apply (gT : Vec Ideal S1x3x2048 .f32) (n : Fin 2048) :
    k0_pay11 (F := Ideal) gT (ix2 0 n)
      = gT (ix3 0 0 n) * gT (ix3 0 0 n) + gT (ix3 0 1 n) * gT (ix3 0 1 n) + gT (ix3 0 2 n) * gT (ix3 0 2 n) := by
  unfold k0_pay11
  show k0_pay8 gT (ix2 0 n) * k0_pay8 gT (ix2 0 n) + k0_pay9 gT (ix2 0 n) * k0_pay9 gT (ix2 0 n)
      + k0_pay10 gT (ix2 0 n) * k0_pay10 gT (ix2 0 n) = _
  rw [pay8_apply, pay9_apply, pay10_apply]

/-- Column 0 of the chunk, at row `r`, is the first coordinate of point `r`. -/
theorem pay14_apply (ch : Vec Ideal S1x1024x3 .f32) (r : Fin 1024) : k0_pay14 (F := Ideal) ch (ix2 r 0) = ch (ix3 0 r 0) := by
  unfold k0_pay14 k0_pay13
  refine (slice2_axis1_apply 0 _ _ r (0 : Fin 1) (0 : Fin 3) rfl).trans ?_
  exact shapeCast_1ab_ab_apply ch _ r 0

/-- Column 1 likewise. -/
theorem pay15_apply (ch : Vec Ideal S1x1024x3 .f32) (r : Fin 1024) : k0_pay15 (F := Ideal) ch (ix2 r 0) = ch (ix3 0 r 1) := by
  unfold k0_pay15 k0_pay13
  refine (slice2_axis1_apply 1 _ _ r (0 : Fin 1) (1 : Fin 3) rfl).trans ?_
  exact shapeCast_1ab_ab_apply ch _ r 1

/-- Column 2 likewise. -/
theorem pay16_apply (ch : Vec Ideal S1x1024x3 .f32) (r : Fin 1024) : k0_pay16 (F := Ideal) ch (ix2 r 0) = ch (ix3 0 r 2) := by
  unfold k0_pay16 k0_pay13
  refine (slice2_axis1_apply 2 _ _ r (0 : Fin 1) (2 : Fin 3) rfl).trans ?_
  exact shapeCast_1ab_ab_apply ch _ r 2

/-- The first two terms of the squared norm of point `r`. -/
theorem pay17_apply (ch : Vec Ideal S1x1024x3 .f32) (r : Fin 1024) :
    k0_pay17 (F := Ideal) ch (ix2 r 0) = ch (ix3 0 r 0) * ch (ix3 0 r 0) + ch (ix3 0 r 1) * ch (ix3 0 r 1) := by
  unfold k0_pay17
  show k0_pay14 ch (ix2 r 0) * k0_pay14 ch (ix2 r 0) + k0_pay15 ch (ix2 r 0) * k0_pay15 ch (ix2 r 0) = _
  rw [pay14_apply, pay15_apply]

/-! ## The least squared distance of one block -/

/-- Over any three rows, three columns and the two partial norms: the rows broadcast down the tile, the columns across it,
    the tile is (row norm + column norm) − 2·(sum of the three products), and lane `n` of the result is the least entry of
    column `n`. -/
theorem pay1_tile (v2 v3 v4 v9 : FVec Ideal S1x2048 .f32) (v41 v42 v43 v46 : FVec Ideal S1024x1 .f32) (n : Fin 2048) :
    k0_pay1 (F := Ideal) v2 v3 v4 v9 v41 v42 v43 v46 (ix2 0 n)
      = (Finset.univ : Finset (Fin 1024)).fold min ⊤ (fun r =>
          (v9 (ix2 0 n) + (v46 (ix2 r 0) + v43 (ix2 r 0) * v43 (ix2 r 0)))
          - two * (v2 (ix2 0 n) * v41 (ix2 r 0) + v3 (ix2 0 n) * v42 (ix2 r 0) + v4 (ix2 0 n) * v43 (ix2 r 0))) := by
  unfold k0_pay1
  refine (shapeCast_a_1a_apply _ _ 0 n).trans ?_
  refine (colMin_apply _ _ _ n).trans ?_
  refine congrArg (fun f : Fin 1024 → EReal => Finset.fold min (⊤ : EReal) f (Finset.univ : Finset (Fin 1024)))
    (funext fun r : Fin 1024 => ?_)
  have hrow : ∀ v : FVec Ideal S1x2048 .f32,
      broadcastTo S1024x2048 v broadcasts_S1x2048_S1024x2048 (ix2 r n) = v (ix2 0 n) :=
    fun v => Cert.Rows.bcast_row (by decide) v _ r n
  have hcol : ∀ v : FVec Ideal S1024x1 .f32,
      broadcastTo S1024x2048 v broadcasts_S1024x1_S1024x2048 (ix2 r n) = v (ix2 r 0) :=
    fun v => Cert.Rows.bcast_col (by decide) v _ r n
  simp only [subf_apply, addf_apply, mulf_apply, broadcast_apply, hrow, hcol]
  rfl

/-- At the slices of the two blocks, lane `n` is the least squared distance from sample `n` to the block's 1024 points. -/
theorem pay1_apply (gT : Vec Ideal S1x3x2048 .f32) (ch : Vec Ideal S1x1024x3 .f32) (n : Fin 2048) :
    k0_pay1 (F := Ideal) (k0_pay8 gT) (k0_pay9 gT) (k0_pay10 gT) (k0_pay11 gT) (k0_pay14 ch) (k0_pay15 ch) (k0_pay16 ch)
        (k0_pay17 ch) (ix2 0 n)
      = (Finset.univ : Finset (Fin 1024)).fold min ⊤ (fun r => sqBlk gT ch n r) := by
  refine (pay1_tile _ _ _ _ _ _ _ _ n).trans ?_
  refine congrArg (fun f : Fin 1024 → EReal => Finset.fold min (⊤ : EReal) f (Finset.univ : Finset (Fin 1024)))
    (funext fun r : Fin 1024 => ?_)
  rw [pay11_apply, pay17_apply, pay16_apply, pay8_apply, pay9_apply, pay10_apply, pay14_apply, pay15_apply]
  rfl

/-- The first cloud's block is the same function of its slices, written out in place: the two unfold to the same term. -/
theorem pay12_apply (gT : Vec Ideal S1x3x2048 .f32) (ch : Vec Ideal S1x1024x3 .f32) (n : Fin 2048) :
    k0_pay12 (F := Ideal) gT ch (ix2 0 n) = (Finset.univ : Finset (Fin 1024)).fold min ⊤ (fun r => sqBlk gT ch n r) :=
  pay1_apply gT ch n

/-! ## The mean absolute difference of the two nearest distances -/

/-- Both running minima are clamped at zero and rooted, the difference's absolute value is `max x (−x)`, the 2048 lanes
    are summed and the sum is divided by 2048; the two recasts [1] → [1, 1] → [1, 1, 1] keep the one entry. -/
theorem pay6_apply (a b : Vec Ideal S1x2048 .f32) :
    k0_pay6 (F := Ideal) a b (ix3 0 0 0)
      = Ideal.div (∑ n : Fin 2048, max (root (a (ix2 0 n)) - root (b (ix2 0 n))) (-(root (a (ix2 0 n)) - root (b (ix2 0 n))))) n2048 := by
  unfold k0_pay6
  refine (shapeCast_ab_1ab_apply _ _ 0 0 0).trans ?_
  rw [divf_apply]
  refine congrArg (fun x : EReal => Ideal.div x n2048) ?_
  refine (shapeCast_a_1a_apply _ _ 0 0).trans ?_
  refine (Ideal.multiReduction_add_single _ _ reduces_S1x2048_S1 _ _ (ix1 0)).trans ?_
  refine Finset.sum_congr rfl (fun (k : Fin 2048) _ => ?_)
  have e : reduces_S1x2048_S1.lift (ix1 0) k = ix2 0 k := Cert.Rows.lift_row reduces_S1x2048_S1 0 k
  rw [e]
  rfl

end Cert.KernelIdeal.Pay

end
-- ==== Proof.KI.Invariant.lean ====
/-
  The running minima, read. After the body at grid point t = 8·b + c, the first scratch buffer at sample n is the least
  squared distance from sample (b, n) to the points 0 … 1024·(c + 1) − 1 of the second cloud argument, and the second
  scratch buffer the same for the first cloud argument — stated by the minimum's universal property: an extended real
  is below the buffer's entry exactly when it is below every one of those squared distances. At c = 7 that is the least
  over all 8192 points, so the output block, computed from the two buffers, is the batch's mean of the specification.
-/
import proofs.«137635_j16346645528639_2_alg».proof.Proof.KI.Steps
import proofs.«137635_j16346645528639_2_alg».proof.Proof.KI.Pay
import proofs.«137635_j16346645528639_2_alg».proof.Proof.Spec

set_option maxRecDepth 16384

noncomputable section

namespace Cert.KernelIdeal.Hand

open Cert.KernelIdeal Cert.KernelIdeal.Gen Cert.KernelIdeal.Pay Cert.Chamfer
open Idealize.ShloMosaic Idealize.ShloMosaic.TcCoe Idealize.ShloMosaic.ValueIdx
open Idealize.SL.Sem

variable (m : (ℓ : Loc nD τ sig) → Buf (Elt Ideal) ℓ)

/-- The three argument arrays of core c. -/
abbrev gtsA (c : Dev nD) : Cloud := m ((c : Thread nD τ).loc main_arg0)
abbrev predsA (c : Dev nD) : Cloud := m ((c : Thread nD τ).loc main_arg1)
abbrev gridA (c : Dev nD) : Grid := m ((c : Thread nD τ).loc main_arg2)

/-- Inside a point's blocks the squared distance is the arrays' squared distance from sample (b, n) to point 1024·c + r. -/
theorem sqBlk_preds (c : Dev nD) (t : Fin cfg0.N) (n : Fin 2048) (r : Fin 1024) :
    sqBlk (iblk m c 0 t) (iblk m c 1 t) n r = sq (gridA m c) (predsA m c) (bOf t) n (ptOf t r) := by
  unfold sqBlk Cert.Chamfer.sq
  rw [iblk0_apply m c t 0 n, iblk0_apply m c t 1 n, iblk0_apply m c t 2 n, iblk1_apply m c t r 0, iblk1_apply m c t r 1,
    iblk1_apply m c t r 2]

theorem sqBlk_gts (c : Dev nD) (t : Fin cfg0.N) (n : Fin 2048) (r : Fin 1024) :
    sqBlk (iblk m c 0 t) (iblk m c 2 t) n r = sq (gridA m c) (gtsA m c) (bOf t) n (ptOf t r) := by
  unfold sqBlk Cert.Chamfer.sq
  rw [iblk0_apply m c t 0 n, iblk0_apply m c t 1 n, iblk0_apply m c t 2 n, iblk2_apply m c t r 0, iblk2_apply m c t r 1,
    iblk2_apply m c t r 2]

/-- The points below 1024·(k + 1) are those below 1024·k and the chunk 1024·k … 1024·k + 1023. -/
theorem chunk_split (P : Fin 8192 → Prop) (k : ℕ) (hk : k < 8) :
    (∀ i : Fin 8192, i.val < (k + 1) * 1024 → P i) ↔
      (∀ i : Fin 8192, i.val < k * 1024 → P i) ∧ (∀ r : Fin 1024, P ⟨k * 1024 + r.val, by have := r.isLt; omega⟩) := by
  constructor
  · intro h
    exact ⟨fun i hi => h i (by omega), fun r => h _ (by have := r.isLt; show k * 1024 + r.val < (k + 1) * 1024; omega)⟩
  · rintro ⟨h1, h2⟩ i hi
    by_cases hlt : i.val < k * 1024
    · exact h1 i hlt
    · have e : i = ⟨k * 1024 + (i.val - k * 1024), by have := i.isLt; omega⟩ := Fin.ext (by show i.val = k * 1024 + (i.val - k * 1024); omega)
      rw [e]
      exact h2 ⟨i.val - k * 1024, by omega⟩

/-- A chunk's minimum: below it exactly when below every squared distance of the chunk. -/
theorem le_chunk_preds (c : Dev nD) (t : Fin cfg0.N) (n : Fin 2048) (x : EReal) :
    x ≤ k0_pay12 (F := Ideal) (iblk m c 0 t) (iblk m c 1 t) (ix2 0 n) ↔ ∀ r : Fin 1024, x ≤ sq (gridA m c) (predsA m c) (bOf t) n (ptOf t r) := by
  rw [pay12_apply, Finset.le_fold_min]
  constructor
  · rintro ⟨-, h⟩ r; rw [← sqBlk_preds]; exact h r (Finset.mem_univ r)
  · intro h; exact ⟨le_top, fun r _ => by rw [sqBlk_preds]; exact h r⟩

theorem le_chunk_gts (c : Dev nD) (t : Fin cfg0.N) (n : Fin 2048) (x : EReal) :
    x ≤ k0_pay1 (F := Ideal) (k0_pay8 (iblk m c 0 t)) (k0_pay9 (iblk m c 0 t)) (k0_pay10 (iblk m c 0 t)) (k0_pay11 (iblk m c 0 t))
        (k0_pay14 (iblk m c 2 t)) (k0_pay15 (iblk m c 2 t)) (k0_pay16 (iblk m c 2 t)) (k0_pay17 (iblk m c 2 t)) (ix2 0 n)
      ↔ ∀ r : Fin 1024, x ≤ sq (gridA m c) (gtsA m c) (bOf t) n (ptOf t r) := by
  rw [pay1_apply, Finset.le_fold_min]
  constructor
  · rintro ⟨-, h⟩ r; rw [← sqBlk_gts]; exact h r (Finset.mem_univ r)
  · intro h; exact ⟨le_top, fun r _ => by rw [sqBlk_gts]; exact h r⟩

/-- The batch does not change between a point that is not the first of its batch and the point before it. -/
theorem bOf_pred (k : ℕ) (hk : k + 1 < cfg0.N) (h0 : ¬ (k + 1) % 8 = 0) :
    bOf ⟨k + 1, hk⟩ = bOf ⟨k, Nat.lt_of_succ_lt hk⟩ := Fin.ext (by show (k + 1) / 8 = k / 8; omega)

/-- THE INVARIANT, first scratch buffer. -/
theorem inv0 (c : Dev nD) : ∀ (k : ℕ) (hk : k < cfg0.N) (n : Fin 2048) (x : EReal),
    x ≤ (outsAt0 m c k hk).2.1 (ix2 0 n) ↔
      ∀ i : Fin 8192, i.val < (k % 8 + 1) * 1024 → x ≤ sq (gridA m c) (predsA m c) (bOf ⟨k, hk⟩) n i := by
  intro k
  induction k with
  | zero =>
    intro hk n x
    rw [S0_first m c ⟨0, hk⟩ (Nat.zero_mod _), pay2_eq, le_chunk_preds m c ⟨0, hk⟩ n x,
      chunk_split (fun i => x ≤ sq (gridA m c) (predsA m c) (bOf ⟨0, hk⟩) n i) 0 (by norm_num)]
    constructor
    · intro h; exact ⟨fun i hi => absurd hi (by omega), h⟩
    · rintro ⟨-, h⟩; exact h
  | succ k ih =>
    intro hk n x
    have hm : (k + 1) % 8 < 8 := Nat.mod_lt _ (by norm_num)
    by_cases h0 : (k + 1) % 8 = 0
    · rw [S0_first m c ⟨k + 1, hk⟩ h0, pay2_eq, le_chunk_preds m c ⟨k + 1, hk⟩ n x,
        chunk_split (fun i => x ≤ sq (gridA m c) (predsA m c) (bOf ⟨k + 1, hk⟩) n i) ((k + 1) % 8) hm]
      constructor
      · intro h; exact ⟨fun i hi => absurd hi (by rw [h0]; omega), h⟩
      · rintro ⟨-, h⟩; exact h
    · rw [S0_later m c ⟨k + 1, hk⟩ h0, pay4_apply, le_min_iff, le_chunk_preds m c ⟨k + 1, hk⟩ n x,
        chunk_split (fun i => x ≤ sq (gridA m c) (predsA m c) (bOf ⟨k + 1, hk⟩) n i) ((k + 1) % 8) hm]
      have e : (k + 1) % 8 = k % 8 + 1 := by omega
      have ihk := ih (Nat.lt_of_succ_lt hk) n x
      rw [← bOf_pred k hk h0, ← e] at ihk
      exact and_congr ihk Iff.rfl

/-- THE INVARIANT, second scratch buffer. -/
theorem inv1 (c : Dev nD) : ∀ (k : ℕ) (hk : k < cfg0.N) (n : Fin 2048) (x : EReal),
    x ≤ (outsAt0 m c k hk).2.2 (ix2 0 n) ↔
      ∀ i : Fin 8192, i.val < (k % 8 + 1) * 1024 → x ≤ sq (gridA m c) (gtsA m c) (bOf ⟨k, hk⟩) n i := by
  intro k
  induction k with
  | zero =>
    intro hk n x
    rw [S1_first m c ⟨0, hk⟩ (Nat.zero_mod _), pay3_eq, le_chunk_gts m c ⟨0, hk⟩ n x,
      chunk_split (fun i => x ≤ sq (gridA m c) (gtsA m c) (bOf ⟨0, hk⟩) n i) 0 (by norm_num)]
    constructor
    · intro h; exact ⟨fun i hi => absurd hi (by omega), h⟩
    · rintro ⟨-, h⟩; exact h
  | succ k ih =>
    intro hk n x
    have hm : (k + 1) % 8 < 8 := Nat.mod_lt _ (by norm_num)
    by_cases h0 : (k + 1) % 8 = 0
    · rw [S1_first m c ⟨k + 1, hk⟩ h0, pay3_eq, le_chunk_gts m c ⟨k + 1, hk⟩ n x,
        chunk_split (fun i => x ≤ sq (gridA m c) (gtsA m c) (bOf ⟨k + 1, hk⟩) n i) ((k + 1) % 8) hm]
      constructor
      · intro h; exact ⟨fun i hi => absurd hi (by rw [h0]; omega), h⟩
      · rintro ⟨-, h⟩; exact h
    · rw [S1_later m c ⟨k + 1, hk⟩ h0, pay5_apply, le_min_iff, le_chunk_gts m c ⟨k + 1, hk⟩ n x,
        chunk_split (fun i => x ≤ sq (gridA m c) (gtsA m c) (bOf ⟨k + 1, hk⟩) n i) ((k + 1) % 8) hm]
      have e : (k + 1) % 8 = k % 8 + 1 := by omega
      have ihk := ih (Nat.lt_of_succ_lt hk) n x
      rw [← bOf_pred k hk h0, ← e] at ihk
      exact and_congr ihk Iff.rfl

/-- After the last chunk of a batch the first scratch buffer holds the least squared distance over ALL the points. -/
theorem S0_last (c : Dev nD) (t : Fin cfg0.N) (h2 : t.val % 8 = 7) (n : Fin 2048) :
    (outsAt0 m c t.val t.isLt).2.1 (ix2 0 n)
      = (Finset.univ : Finset (Fin 8192)).fold min ⊤ (fun i => sq (gridA m c) (predsA m c) (bOf t) n i) := by
  refine eq_of_forall_le_iff fun x => ?_
  rw [inv0 m c t.val t.isLt n x, Finset.le_fold_min]
  constructor
  · intro h; exact ⟨le_top, fun i _ => h i (by have := i.isLt; rw [h2]; omega)⟩
  · rintro ⟨-, h⟩ i _; exact h i (Finset.mem_univ i)

theorem S1_last (c : Dev nD) (t : Fin cfg0.N) (h2 : t.val % 8 = 7) (n : Fin 2048) :
    (outsAt0 m c t.val t.isLt).2.2 (ix2 0 n)
      = (Finset.univ : Finset (Fin 8192)).fold min ⊤ (fun i => sq (gridA m c) (gtsA m c) (bOf t) n i) := by
  refine eq_of_forall_le_iff fun x => ?_
  rw [inv1 m c t.val t.isLt n x, Finset.le_fold_min]
  constructor
  · intro h; exact ⟨le_top, fun i _ => h i (by have := i.isLt; rw [h2]; omega)⟩
  · rintro ⟨-, h⟩ i _; exact h i (Finset.mem_univ i)

/-- THE OUTPUT BLOCK after the last chunk of batch b is the specification's mean for that batch. -/
theorem out_is_G (c : Dev nD) (t : Fin cfg0.N) (h2 : t.val % 8 = 7) :
    (outsAt0 m c t.val t.isLt).1 (ix3 0 0 0) = G (gtsA m c) (predsA m c) (gridA m c) (bOf t) := by
  rw [out_last m c t h2, pay6_apply]
  unfold G near
  simp only [S0_last m c t h2, S1_last m c t h2]

end Cert.KernelIdeal.Hand

end
-- ==== Proof.KI.Final.lean ====
/-
  From the output block to the result. At the last chunk of batch b the pipeline writes the output block back, and it
  holds the specification's mean for b; the eight one-entry blocks cover the [8, 1, 1] array; the line after the region
  recasts it as [8]. So the program's result at b is the specification's mean for b.
-/
import proofs.«137635_j16346645528639_2_alg».proof.Proof.KI.Invariant
import Idealize.ShloMosaic.Lib.Pipeline.Value
import Idealize.ShloMosaic.Lib.StableHlo.Run

set_option maxRecDepth 16384

noncomputable section

namespace Cert.KernelIdeal.Hand

open Cert.KernelIdeal Cert.KernelIdeal.Gen Cert.KernelIdeal.Pay Cert.Chamfer
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

/-- The output window's array as the specification gives it: entry (b, 0, 0) is the mean for batch b. -/
def GArr (c : Dev nD) : S8x1x1.Idx → EReal := fun j => G (gtsA m c) (predsA m c) (gridA m c) (j 0)

/-- What a point of the last chunk writes back is its block of that array. -/
theorem flushed3_eq (c : Dev nD) (t : Fin cfg0.N) (hf : (cfg0.win 3).flush t = true) :
    (dats m 0 c).flushed 3 t = ((cfg0.win 3).blk t).view.read (Elt Ideal) (GArr m c) := by
  have h2 : t.val % 8 = 7 := (flush0_3 t).mp hf
  show (cfg0.win 3).cut (grid0.coords t) ((dats m 0 c).after 3 t) = _
  rw [after0_3]
  funext y
  revert y
  show ∀ y : S1x1x1.Idx, (outsAt0 m c t.val t.isLt).1 y = GArr m c (((cfg0.win 3).blk t).view.emb y)
  intro y
  have hy : y = ix3 (0 : Fin 1) (0 : Fin 1) (0 : Fin 1) := by
    funext a; apply Fin.ext
    match a with
    | ⟨0, _⟩ => have h : (y 0).val < 1 := (y 0).isLt; show (y 0).val = 0; omega
    | ⟨1, _⟩ => have h : (y 1).val < 1 := (y 1).isLt; show (y 1).val = 0; omega
    | ⟨2, _⟩ => have h : (y 2).val < 1 := (y 2).isLt; show (y 2).val = 0; omega
  rw [hy, out_is_G m c t h2]
  unfold GArr
  refine congrArg (G (gtsA m c) (predsA m c) (gridA m c)) ?_
  obtain ⟨-, -, -, -, -, -, -, -, -, e0, -, -⟩ := idx_facts t
  apply Fin.ext
  show t.val / 8 = win0_3.index t (0 : Fin 3) * 1 + 1 * 0
  omega

/-- An index of the output array is in a point's block iff each coordinate is in the block's range. -/
theorem mem_blk3 (t : Fin cfg0.N) (i : S8x1x1.Idx) :
    i ∈ ((cfg0.win 3).blk t).view.set ↔ ∀ a : Fin 3, win0_3.index t a * S1x1x1.size a ≤ (i a).val ∧ (i a).val < win0_3.index t a * S1x1x1.size a + S1x1x1.size a := by
  show i ∈ ((View.whole main_v1).slice (win0_3.rect t)).set ↔ _
  rw [View.set_slice_whole, Rect.mem_set_unit]
  exact Iff.rfl

/-- Entry (b, 0, 0) is written back by the point 8·b + 7. -/
theorem cover3 (i : S8x1x1.Idx) : ∃ t : Fin cfg0.N, (cfg0.win 3).flush t = true ∧ i ∈ ((cfg0.win 3).blk t).view.set := by
  have hi0 : (i 0).val < 8 := (i 0).isLt
  have hi1 : (i 1).val < 1 := (i 1).isLt
  have hi2 : (i 2).val < 1 := (i 2).isLt
  obtain ⟨t, ht⟩ : ∃ t : Fin cfg0.N, t.val = (i 0).val * 8 + 7 := ⟨⟨(i 0).val * 8 + 7, by rw [show cfg0.N = 64 from N_0]; omega⟩, rfl⟩
  refine ⟨t, (flush0_3 t).mpr (by omega), ?_⟩
  rw [mem_blk3]
  obtain ⟨-, -, -, -, -, -, -, -, -, e0, e1, e2⟩ := idx_facts t
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 1 ≤ (i 2).val ∧ (i 2).val < win0_3.index t (2 : Fin 3) * 1 + 1; omega

/-- THE OUTPUT ARRAY after the region. -/
theorem final3 (c : Dev nD) : (dats m 0 c).arrAt 3 cfg0.N = GArr m c :=
  (dats m 0 c).arrAt_eq_of_cover 3 (GArr m c) (fun t hf => flushed3_eq m c t hf) cover3

/-- THE RESULT after the line that follows the region: the [8, 1, 1] array recast as [8]. -/
theorem tail_v2 (c : Dev nD) :
    Pipeline.afterTail₀ cfgs (dats m) 0 (V0 m) [hostOps1] c main_v2 = fun j => G (gtsA m c) (predsA m c) (gridA m c) (j 0) := by
  have hw : Pipeline.withArrays (cfgs 0).spec c (V0 m c) (fun w => (dats m 0 c).arrAt w (cfgs 0).N) (Proc.devRef .tc main_v1) = GArr m c :=
    (Pipeline.withArrays_arr spec0 launch0.win.arr_inj c _ _ 3).trans (final3 m c)
  unfold Pipeline.afterTail₀
  show StableHlo.after hostOps1 _ (Proc.devRef .tc main_v2) = _
  after_results
  funext j
  show shapeCast S8 (Pipeline.withArrays (cfgs 0).spec c (V0 m c) (fun w => (dats m 0 c).arrAt w (cfgs 0).N) (Proc.devRef .tc main_v1)) shapeCasts_S8x1x1_S8 j = _
  rw [hw]
  obtain ⟨b, rfl⟩ : ∃ b : Fin 8, j = ix1 b := ⟨j 0, eq_ix1 j⟩
  exact shapeCast_apply (GArr m c) shapeCasts_S8x1x1_S8 (ix1 b) (ix3 b 0 0) (by
    rw [Shape.rowMajor_val_three, Shape.rowMajor_val_one]; show (b.val * 1 + 0) * 1 + 0 = b.val; omega)

/-- THE RUN, with its result named: every weakly fair execution terminates with the result at the specification's means
    and the three arguments unchanged. -/
theorem run_value : θ_run defs (onTc (τ := τ) (main (F := Ideal))) ⟨m, fun _ => 0, ρ⟩ (fun r => ∀ c : Dev nD,
      r.2.mem ((c.tc : Thread nD τ).loc main_v2) = (fun j => G (gtsA m c) (predsA m c) (gridA m c) (j 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_v2 (Pipeline.mem_restRefs_of main_v2 (by decide) (by decide))).trans (tail_v2 m c),
      ((h c).1 2).trans (((dats m 0 c).arrAt_in 2 rfl _).trans ((A_eq m c 2).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c))⟩)
    (run_main m ρ)

end Cert.KernelIdeal.Hand

end
-- ==== Proof.RefSpec.lean ====
/-
  The reference computes the specification.

  For a batch b, a grid sample n and a point i, the reference forms the squared distance as
      (|g|² + |x|²) − 2·⟨g, x⟩,
  where each of the three sums runs over the three coordinates and starts from the zero word. That word is the real
  number 0, so each sum is its three terms added from the left, which is how the specification writes them. The
  reference then clamps at the zero word, takes the square root of EVERY clamped square, and takes the least root over
  the 8192 points, starting from the word of +∞. Because the clamped root is monotone and fixes +∞, the least root is
  the root of the least square: the specification's nearest distance. What remains is pointwise: the difference of the
  two nearest distances, its absolute value (the larger of a number and its negative), the sum over the 2048 samples
  from the zero word, and the division by the word of 2048.

  The words 2, the clamp's 0 and 2048 are the same words on both sides and are never evaluated; only the zero that
  starts a sum and the +∞ that starts a minimum are.
-/
import proofs.«137635_j16346645528639_2_alg».proof.Proof.Spec
import proofs.«137635_j16346645528639_2_alg».proof.Proof.Gen.ReferenceIdeal.Read

noncomputable section

open scoped BigOperators

namespace Cert.Chamfer.Ref

open Idealize.ShloMosaic Idealize.ShloMosaic.ValueIdx Cert.ReferenceIdeal Cert.ReferenceIdeal.Gen Cert.ReferenceIdeal.Read

/-! ## The three-term sums

Each sum of the reference starts from the zero word, which is the real number 0 and so contributes nothing; what is
left is the sum over the three coordinates, written out from the left. -/

/-- The squared length of grid sample (b, n), as the first distance computes it. -/
theorem gridSq_at (x2 : (⟨S8x2048x3, .f32⟩ : BufTy).Contents (Elt Ideal)) (b : Fin 8) (n : Fin 2048) :
    val_main_v1 (F := Ideal) x2 (ix2 b n)
      = x2 (ix3 b n 0) * x2 (ix3 b n 0) + x2 (ix3 b n 1) * x2 (ix3 b n 1) + x2 (ix3 b n 2) * x2 (ix3 b n 2) := by
  have e : ∀ k : Fin 3, idx_main_v1 (ix2 b n) k = ix3 b n k := fun k =>
    funext fun a => Fin.ext (by match a with | ⟨0, _⟩ => rfl | ⟨1, _⟩ => rfl | ⟨2, _⟩ => rfl)
  rw [val_main_v1_apply, val_main_cst_apply]
  simp only [val_main_v0_apply, e, Ideal.ofBits_def, Ideal.ofBits_zero_f32, zero_add, Fin.sum_univ_three, Ideal.mulf_def]

/-- The squared length of grid sample (b, n), as the second distance computes it: the same sum. -/
theorem gridSq'_at (x2 : (⟨S8x2048x3, .f32⟩ : BufTy).Contents (Elt Ideal)) (b : Fin 8) (n : Fin 2048) :
    val_main_v18 (F := Ideal) x2 (ix2 b n)
      = x2 (ix3 b n 0) * x2 (ix3 b n 0) + x2 (ix3 b n 1) * x2 (ix3 b n 1) + x2 (ix3 b n 2) * x2 (ix3 b n 2) := by
  have e : ∀ k : Fin 3, idx_main_v18 (ix2 b n) k = ix3 b n k := fun k =>
    funext fun a => Fin.ext (by match a with | ⟨0, _⟩ => rfl | ⟨1, _⟩ => rfl | ⟨2, _⟩ => rfl)
  rw [val_main_v18_apply, val_main_cst_4_apply]
  simp only [val_main_v17_apply, e, Ideal.ofBits_def, Ideal.ofBits_zero_f32, zero_add, Fin.sum_univ_three, Ideal.mulf_def]

/-- The squared length of point (b, i) of the first cloud. -/
theorem cloudSq_at (x1 : (⟨S8x8192x3, .f32⟩ : BufTy).Contents (Elt Ideal)) (b : Fin 8) (i : Fin 8192) :
    val_main_v4 (F := Ideal) x1 (ix2 b i)
      = x1 (ix3 b i 0) * x1 (ix3 b i 0) + x1 (ix3 b i 1) * x1 (ix3 b i 1) + x1 (ix3 b i 2) * x1 (ix3 b i 2) := by
  have e : ∀ k : Fin 3, idx_main_v4 (ix2 b i) k = ix3 b i k := fun k =>
    funext fun a => Fin.ext (by match a with | ⟨0, _⟩ => rfl | ⟨1, _⟩ => rfl | ⟨2, _⟩ => rfl)
  rw [val_main_v4_apply, val_main_cst_0_apply]
  simp only [val_main_v3_apply, e, Ideal.ofBits_def, Ideal.ofBits_zero_f32, zero_add, Fin.sum_univ_three, Ideal.mulf_def]

/-- The squared length of point (b, i) of the second cloud. -/
theorem cloudSq'_at (x0 : (⟨S8x8192x3, .f32⟩ : BufTy).Contents (Elt Ideal)) (b : Fin 8) (i : Fin 8192) :
    val_main_v21 (F := Ideal) x0 (ix2 b i)
      = x0 (ix3 b i 0) * x0 (ix3 b i 0) + x0 (ix3 b i 1) * x0 (ix3 b i 1) + x0 (ix3 b i 2) * x0 (ix3 b i 2) := by
  have e : ∀ k : Fin 3, idx_main_v21 (ix2 b i) k = ix3 b i k := fun k =>
    funext fun a => Fin.ext (by match a with | ⟨0, _⟩ => rfl | ⟨1, _⟩ => rfl | ⟨2, _⟩ => rfl)
  rw [val_main_v21_apply, val_main_cst_5_apply]
  simp only [val_main_v20_apply, e, Ideal.ofBits_def, Ideal.ofBits_zero_f32, zero_add, Fin.sum_univ_three, Ideal.mulf_def]

/-- The inner product of grid sample (b, n) with point (b, i) of the first cloud. -/
theorem dot_at (x1 : (⟨S8x8192x3, .f32⟩ : BufTy).Contents (Elt Ideal)) (x2 : (⟨S8x2048x3, .f32⟩ : BufTy).Contents (Elt Ideal))
    (b : Fin 8) (n : Fin 2048) (i : Fin 8192) :
    val_main_v6 (F := Ideal) x1 x2 (ix3 b n i)
      = x2 (ix3 b n 0) * x1 (ix3 b i 0) + x2 (ix3 b n 1) * x1 (ix3 b i 1) + x2 (ix3 b n 2) * x1 (ix3 b i 2) := by
  have el : ∀ k : Fin 3, lidx_main_v6 (ix3 b n i) k = ix3 b n k := fun k =>
    funext fun a => Fin.ext (by match a with | ⟨0, _⟩ => rfl | ⟨1, _⟩ => rfl | ⟨2, _⟩ => rfl)
  have er : ∀ k : Fin 3, ridx_main_v6 (ix3 b n i) k = ix3 b i k := fun k =>
    funext fun a => Fin.ext (by match a with | ⟨0, _⟩ => rfl | ⟨1, _⟩ => rfl | ⟨2, _⟩ => rfl)
  rw [val_main_v6_apply]
  simp only [el, er, Fin.sum_univ_three]

/-- The inner product of grid sample (b, n) with point (b, i) of the second cloud. -/
theorem dot'_at (x0 : (⟨S8x8192x3, .f32⟩ : BufTy).Contents (Elt Ideal)) (x2 : (⟨S8x2048x3, .f32⟩ : BufTy).Contents (Elt Ideal))
    (b : Fin 8) (n : Fin 2048) (i : Fin 8192) :
    val_main_v23 (F := Ideal) x0 x2 (ix3 b n i)
      = x2 (ix3 b n 0) * x0 (ix3 b i 0) + x2 (ix3 b n 1) * x0 (ix3 b i 1) + x2 (ix3 b n 2) * x0 (ix3 b i 2) := by
  have el : ∀ k : Fin 3, lidx_main_v23 (ix3 b n i) k = ix3 b n k := fun k =>
    funext fun a => Fin.ext (by match a with | ⟨0, _⟩ => rfl | ⟨1, _⟩ => rfl | ⟨2, _⟩ => rfl)
  have er : ∀ k : Fin 3, ridx_main_v23 (ix3 b n i) k = ix3 b i k := fun k =>
    funext fun a => Fin.ext (by match a with | ⟨0, _⟩ => rfl | ⟨1, _⟩ => rfl | ⟨2, _⟩ => rfl)
  rw [val_main_v23_apply]
  simp only [el, er, Fin.sum_univ_three]

/-! ## The rooted, clamped squared distances -/

/-- The first distance at (b, n, i): the clamped root of the squared distance from grid sample (b, n) to point (b, i) of
    the first cloud. The words 2 and the clamp's 0 stay as they are. -/
theorem dist_at (x1 : (⟨S8x8192x3, .f32⟩ : BufTy).Contents (Elt Ideal)) (x2 : (⟨S8x2048x3, .f32⟩ : BufTy).Contents (Elt Ideal))
    (b : Fin 8) (n : Fin 2048) (i : Fin 8192) :
    val_main_v15 (F := Ideal) x1 x2 (ix3 b n i) = root (sq x2 x1 b n i) := by
  have e7 : idx_main_v7 (ix3 b n i) = ix3 b n (0 : Fin 1) :=
    funext fun a => Fin.ext (by match a with | ⟨0, _⟩ => rfl | ⟨1, _⟩ => rfl | ⟨2, _⟩ => rfl)
  have e2 : idx_main_v2 (ix3 b n (0 : Fin 1)) = ix2 b n :=
    funext fun a => Fin.ext (by match a with | ⟨0, _⟩ => rfl | ⟨1, _⟩ => rfl)
  have e8 : idx_main_v8 (ix3 b n i) = ix3 b (0 : Fin 1) i :=
    funext fun a => Fin.ext (by match a with | ⟨0, _⟩ => rfl | ⟨1, _⟩ => rfl | ⟨2, _⟩ => rfl)
  have e5 : idx_main_v5 (ix3 b (0 : Fin 1) i) = ix2 b i :=
    funext fun a => Fin.ext (by match a with | ⟨0, _⟩ => rfl | ⟨1, _⟩ => rfl)
  rw [val_main_v15_apply, val_main_v14_apply, val_main_v12_apply, val_main_v13_apply, val_main_cst_2_apply,
    val_main_v9_apply, val_main_v11_apply, val_main_v10_apply, val_main_cst_1_apply, dot_at,
    val_main_v7_apply, e7, val_main_v2_apply, e2, gridSq_at, val_main_v8_apply, e8, val_main_v5_apply, e5, cloudSq_at]
  rfl

/-- The second distance at (b, n, i): the same, to point (b, i) of the second cloud. -/
theorem dist'_at (x0 : (⟨S8x8192x3, .f32⟩ : BufTy).Contents (Elt Ideal)) (x2 : (⟨S8x2048x3, .f32⟩ : BufTy).Contents (Elt Ideal))
    (b : Fin 8) (n : Fin 2048) (i : Fin 8192) :
    val_main_v32 (F := Ideal) x0 x2 (ix3 b n i) = root (sq x2 x0 b n i) := by
  have e7 : idx_main_v24 (ix3 b n i) = ix3 b n (0 : Fin 1) :=
    funext fun a => Fin.ext (by match a with | ⟨0, _⟩ => rfl | ⟨1, _⟩ => rfl | ⟨2, _⟩ => rfl)
  have e2 : idx_main_v19 (ix3 b n (0 : Fin 1)) = ix2 b n :=
    funext fun a => Fin.ext (by match a with | ⟨0, _⟩ => rfl | ⟨1, _⟩ => rfl)
  have e8 : idx_main_v25 (ix3 b n i) = ix3 b (0 : Fin 1) i :=
    funext fun a => Fin.ext (by match a with | ⟨0, _⟩ => rfl | ⟨1, _⟩ => rfl | ⟨2, _⟩ => rfl)
  have e5 : idx_main_v22 (ix3 b (0 : Fin 1) i) = ix2 b i :=
    funext fun a => Fin.ext (by match a with | ⟨0, _⟩ => rfl | ⟨1, _⟩ => rfl)
  rw [val_main_v32_apply, val_main_v31_apply, val_main_v29_apply, val_main_v30_apply, val_main_cst_7_apply,
    val_main_v26_apply, val_main_v28_apply, val_main_v27_apply, val_main_cst_6_apply, dot'_at,
    val_main_v24_apply, e7, val_main_v19_apply, e2, gridSq'_at, val_main_v25_apply, e8, val_main_v22_apply, e5, cloudSq'_at]
  rfl

/-! ## The nearest distance

The reference takes the least, over the 8192 points, of the rooted distances, starting from the word of +∞. The
clamped root is monotone and fixes +∞, so that least root is the root of the least squared distance. -/

/-- A fold of the ideal minimum, started at +∞, over values that are clamped roots is the clamped root of the least
    of the values rooted. -/
theorem least_root {ι : Type} (S : Finset ι) (c : EReal) (hc : c = ⊤) (f s : ι → EReal) (h : ∀ i, f i = root (s i)) :
    S.fold (FloatOps.minimumf (F := Ideal) (φ := .f32)) c f = root (S.fold min ⊤ s) := by
  subst hc
  rw [show f = fun i => root (s i) from funext h]
  exact fold_min_root S s

/-- The nearest distance from grid sample (b, n) to the first cloud. -/
theorem near_at (x1 : (⟨S8x8192x3, .f32⟩ : BufTy).Contents (Elt Ideal)) (x2 : (⟨S8x2048x3, .f32⟩ : BufTy).Contents (Elt Ideal))
    (b : Fin 8) (n : Fin 2048) :
    val_main_v16 (F := Ideal) x1 x2 (ix2 b n) = near x2 x1 b n := by
  have hR : S8x2048x8192.Reduces [2] S8x2048 := by decide
  have key : ∀ i : Fin 8192, (val_main_v15 (F := Ideal) x1 x2 ∘ hR.lift (ix2 b n)) i = root (sq x2 x1 b n i) := fun i => by
    have e : hR.lift (ix2 b n) i = ix3 b n i :=
      funext fun a => Fin.ext (by match a with | ⟨0, _⟩ => rfl | ⟨1, _⟩ => rfl | ⟨2, _⟩ => rfl)
    show val_main_v15 (F := Ideal) x1 x2 (hR.lift (ix2 b n) i) = _
    rw [e, dist_at]
  unfold val_main_v16
  refine (Host.reduce_eq_fold_single FloatOps.minimumf _ _ reducesTo_S8x2048x8192_S8x2048_d2 hR h_S_ (ix2 b n)).trans ?_
  exact least_root Finset.univ _ ((val_main_cst_3_apply (F := Ideal) _).trans top_word) _ (fun i => sq x2 x1 b n i) key

/-- The nearest distance from grid sample (b, n) to the second cloud. -/
theorem near'_at (x0 : (⟨S8x8192x3, .f32⟩ : BufTy).Contents (Elt Ideal)) (x2 : (⟨S8x2048x3, .f32⟩ : BufTy).Contents (Elt Ideal))
    (b : Fin 8) (n : Fin 2048) :
    val_main_v33 (F := Ideal) x0 x2 (ix2 b n) = near x2 x0 b n := by
  have hR : S8x2048x8192.Reduces [2] S8x2048 := by decide
  have key : ∀ i : Fin 8192, (val_main_v32 (F := Ideal) x0 x2 ∘ hR.lift (ix2 b n)) i = root (sq x2 x0 b n i) := fun i => by
    have e : hR.lift (ix2 b n) i = ix3 b n i :=
      funext fun a => Fin.ext (by match a with | ⟨0, _⟩ => rfl | ⟨1, _⟩ => rfl | ⟨2, _⟩ => rfl)
    show val_main_v32 (F := Ideal) x0 x2 (hR.lift (ix2 b n) i) = _
    rw [e, dist'_at]
  unfold val_main_v33
  refine (Host.reduce_eq_fold_single FloatOps.minimumf _ _ reducesTo_S8x2048x8192_S8x2048_d2 hR h_S_ (ix2 b n)).trans ?_
  exact least_root Finset.univ _ ((val_main_cst_8_apply (F := Ideal) _).trans top_word) _ (fun i => sq x2 x0 b n i) key

/-! ## The mean of the absolute differences -/

/-- The absolute difference of the two nearest distances at sample (b, n): the larger of the difference and its negative. -/
theorem absdiff_at (x0 x1 : (⟨S8x8192x3, .f32⟩ : BufTy).Contents (Elt Ideal)) (x2 : (⟨S8x2048x3, .f32⟩ : BufTy).Contents (Elt Ideal))
    (b : Fin 8) (n : Fin 2048) :
    val_main_v35 (F := Ideal) x0 x1 x2 (ix2 b n)
      = max (near x2 x1 b n - near x2 x0 b n) (-(near x2 x1 b n - near x2 x0 b n)) := by
  rw [val_main_v35_apply, val_main_v34_apply, near_at, near'_at]
  rfl

/-- The reference's result at batch b is the specification: the sum, from the zero word, over the 2048 samples of the
    absolute differences, divided by the word of 2048. -/
theorem ref_eq (x0 x1 : (⟨S8x8192x3, .f32⟩ : BufTy).Contents (Elt Ideal)) (x2 : (⟨S8x2048x3, .f32⟩ : BufTy).Contents (Elt Ideal)) :
    val_main_v38 (F := Ideal) x0 x1 x2 = fun i => G x0 x1 x2 (i 0) := by
  funext i
  obtain ⟨b, rfl⟩ : ∃ b : Fin 8, i = ix1 b := ⟨i 0, eq_ix1 i⟩
  have hs : ∀ k : Fin 2048, val_main_v35 (F := Ideal) x0 x1 x2 (idx_main_v36 (ix1 b) k)
      = max (near x2 x1 b k - near x2 x0 b k) (-(near x2 x1 b k - near x2 x0 b k)) := fun k => by
    have e : idx_main_v36 (ix1 b) k = ix2 b k :=
      funext fun a => Fin.ext (by match a with | ⟨0, _⟩ => rfl | ⟨1, _⟩ => rfl)
    rw [e, absdiff_at]
  rw [val_main_v38_apply, val_main_v37_apply, val_main_cst_10_apply, val_main_v36_apply, val_main_cst_9_apply,
    Finset.sum_congr rfl (fun k _ => hs k)]
  simp only [Ideal.ofBits_def, Ideal.ofBits_zero_f32, zero_add, Ideal.hostDivf_def]
  rfl

end Cert.Chamfer.Ref

end
-- ==== Proof.lean ====
/-
  The kernel computes, for each of 8 batches, the mean over 2048 grid samples of |d(n, preds) − d(n, gts)|, where d(n, X) is
  the distance from sample n to the nearest of the 8192 points of the cloud X. It walks the 8192 points in 8 chunks of
  1024: for each chunk it forms the squared distances (|g|² + |x|²) − 2·⟨g, x⟩ on a [1024, 2048] tile and takes the least
  down the rows; two scratch rows keep the running least over the chunks (set at the first chunk, lowered afterwards); at
  the last chunk it clamps at zero, takes square roots, and averages the absolute differences. The reference forms every
  distance √(max(sq, 0)) and takes the least of the DISTANCES.

  On the extended reals the two are one function: the squared distances are the same expression on both sides, the least
  over 8192 points is the least over the chunks' leasts, and x ↦ √(max(x, 0)) is monotone and fixes +∞, so it commutes with a
  finite minimum (Spec.lean). No finiteness of the inputs is used.

  Frames: the kernel's body is run by cases on the chunk coordinate (first, middle, last chunk), the region's invariant
  carrying the two scratch rows from point to point (K/ for the word-level program, KI/ for the idealized one; the same
  text). The reference's frame is its generated run. The idealization rewrote nothing, so `preserves` is trivial.
-/
import proofs.«137635_j16346645528639_2_alg».proof.Defs
import proofs.«137635_j16346645528639_2_alg».proof.Proof.Gen.Kernel
import proofs.«137635_j16346645528639_2_alg».proof.Proof.Gen.KernelIdeal
import proofs.«137635_j16346645528639_2_alg».proof.Proof.Gen.ReferenceIdeal
import proofs.«137635_j16346645528639_2_alg».proof.Proof.Gen.Pre_finite_inputs
import proofs.«137635_j16346645528639_2_alg».proof.Proof.Gen.ReferenceIdeal.Run
import proofs.«137635_j16346645528639_2_alg».proof.Proof.Gen.ReferenceIdeal.Read
import proofs.«137635_j16346645528639_2_alg».proof.Proof.K.Body
import proofs.«137635_j16346645528639_2_alg».proof.Proof.KI.Final
import proofs.«137635_j16346645528639_2_alg».proof.Proof.RefSpec

noncomputable section

namespace Cert.Proof

open Idealize.ShloMosaic Idealize.ShloMosaic.TcCoe Idealize.SL.Sem

/-- The idealized programs, from memories agreeing on the arguments, end with equal results: the kernel's run ends at the
    specification's means (KI/Final.lean), the reference's at its composed term, which is the specification's means of
    its own arguments (RefSpec.lean), and the arguments agree. -/
theorem algebraic : Cert.algebraic_KernelIdeal_ReferenceIdeal := by
  intro m ρ m' ρ' _ hagree
  refine ⟨fun c => (fun j => Cert.Chamfer.G (Cert.KernelIdeal.Hand.gtsA m c) (Cert.KernelIdeal.Hand.predsA m c) (Cert.KernelIdeal.Hand.gridA m c) (j 0)),
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  refine (Cert.Chamfer.Ref.ref_eq _ _ _).trans ?_
  rw [(hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  fun m ρ _ => (θ_run Cert.ReferenceIdeal.defs _ _).mono (fun _ h c => (h c).2) (Cert.ReferenceIdeal.Value.run (F := Ideal) m ρ),
  trivial,
  algebraic⟩

end Cert.Proof

end
